-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x3 : Shape := ⟨2, ![800000, 3]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S131x1 : Shape := ⟨2, ![131, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S131x1 : S_.BroadcastsInDim S131x1 (![] : Fin 0 → Fin S131x1.rank)
  reducesTo_S131x1_S_d0_1 : S131x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S131x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S131x1 .f32 := Host.absf main_arg8
  let main_cst_10 : FVec F S_ .f32 := constant S_ .f32 0x7F800000#32
  let main_v30 : FVec F S131x1 .f32 := broadcastInDim S131x1 ![] bcast_S_S131x1 main_cst_10
  let main_v31 : IVec S131x1 1 := cmpf .olt main_v29 main_v30
  let main_c_11 : IVec S_ 1 := constantI S_ 1 1#1
  let main_v32 : IVec S_ 1 := (fun x v => Host.reduce IntOp.andi x v reducesTo_S131x1_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : FVec F S800000x3 .f32) (main_arg2 : IVec S800000 32) (main_arg3 : IVec S800000 32) (main_arg4 : FVec F S128x64 .f32) (main_arg5 : FVec F S64 .f32) (main_arg6 : FVec F S64x64 .f32) (main_arg7 : FVec F S64 .f32) (main_arg8 : FVec F S131x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x3 .f32 := Host.absf main_arg1
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S50000x128 : Shape := ⟨2, ![50000, 128]⟩
abbrev S800000x3 : Shape := ⟨2, ![800000, 3]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S131x1 : Shape := ⟨2, ![131, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S10000x128 : Shape := ⟨2, ![10000, 128]⟩
abbrev S10000x1 : Shape := ⟨2, ![10000, 1]⟩
abbrev S800000x128 : Shape := ⟨2, ![800000, 128]⟩
abbrev S1x64 : Shape := ⟨2, ![1, 64]⟩
abbrev S50000x64 : Shape := ⟨2, ![50000, 64]⟩
abbrev S10000x64 : Shape := ⟨2, ![10000, 64]⟩
abbrev S800000x64 : Shape := ⟨2, ![800000, 64]⟩
abbrev S64x1 : Shape := ⟨2, ![64, 1]⟩
abbrev S3x1 : Shape := ⟨2, ![3, 1]⟩
abbrev S1x1 : Shape := ⟨2, ![1, 1]⟩
abbrev S10000x3 : Shape := ⟨2, ![10000, 3]⟩

abbrev nBuf : Space → Nat
  | .hbm => 92
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S800000x3, .f32⟩
  | .hbm, ⟨2, _⟩ => ⟨S800000, .i32⟩
  | .hbm, ⟨3, _⟩ => ⟨S800000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S131x1, .f32⟩
  | .hbm, ⟨9, _⟩ => ⟨S1, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x64, .f32⟩
  | .hbm, ⟨51, _⟩ => ⟨S50000x64, .f32⟩
  | .hbm, ⟨52, _⟩ => ⟨S50000x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S64x1, .f32⟩
  | .hbm, ⟨69, _⟩ => ⟨S64x1, .f32⟩
  | .hbm, ⟨70, _⟩ => ⟨S3x1, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x64, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x64, .f32⟩
  | .hbm, ⟨89, _⟩ => ⟨S1x1, .f32⟩
  | .hbm, ⟨90, _⟩ => ⟨S800000x1, .f32⟩
  | .hbm, ⟨91, _⟩ => ⟨S800000, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S128x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .f32⟩
  | .local _ .vmem, ⟨23, _⟩ => ⟨S10000x1, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x3, .f32⟩
  | .local _ .vmem, ⟨33, _⟩ => ⟨S10000x3, .f32⟩
  | .local _ .vmem, ⟨34, _⟩ => ⟨S64x1, .f32⟩
  | .local _ .vmem, ⟨35, _⟩ => ⟨S64x1, .f32⟩
  | .local _ .vmem, ⟨36, _⟩ => ⟨S3x1, .f32⟩
  | .local _ .vmem, ⟨37, _⟩ => ⟨S1x1, .f32⟩
  | .local _ .vmem, ⟨38, _⟩ => ⟨S10000x1, .f32⟩
  | .local _ .vmem, ⟨39, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_c_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem7_1 : DmaSem sig := 39

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x3 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S3x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  shapeCasts_S64_S1x64 : S64.ShapeCasts S1x64
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bcast_S_S50000x64 : S_.BroadcastsInDim S50000x64 (![] : Fin 0 → Fin S50000x64.rank)
  inb_S64x64_S64x64_0_0 : ∀ a, (![0, 0] : Fin 2 → Nat) a + S64x64.size a ≤ S64x64.size a
  h_S64x64 : 0 < S64x64.numel
  slices_S131x1_S64x1_0_0 : S131x1.Slices ![0, 0] S64x1
  slices_S131x1_S64x1_64_0 : S131x1.Slices ![64, 0] S64x1
  slices_S131x1_S3x1_128_0 : S131x1.Slices ![128, 0] S3x1
  shapeCasts_S1_S1x1 : S1.ShapeCasts S1x1
  inb_S10000x3_S10000x3_0_0 : ∀ a, (![0, 0] : Fin 2 → Nat) a + S10000x3.size a ≤ S10000x3.size a
  h_S10000x3 : 0 < S10000x3.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S3x1_S3x1_0_0 : ∀ a, (![0, 0] : Fin 2 → Nat) a + S3x1.size a ≤ S3x1.size a
  h_S3x1 : 0 < S3x1.numel
  shapeCasts_S3x1_S3x1 : S3x1.ShapeCasts S3x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S800000x1_S800000 : S800000x1.ShapeCasts S800000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  dot_S10000x3_S3x1_S10000x1_1_0_0_1_n_n_wf : DotDims.WF S10000x3 S3x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S50000x1.size a
  hwx3_1 : ∀ i : grid3.Coords, EltTy.bits .f32 = 32 ∨ (Rect.block (s := S50000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S50000x64.size a
  hwx3_4 : ∀ i : grid3.Coords, EltTy.bits .f32 = 32 ∨ (Rect.block (s := S50000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S800000x64.size a
  hwx4_0 : ∀ i : grid4.Coords, EltTy.bits .f32 = 32 ∨ (Rect.block (s := S800000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S800000x64.size a
  hwx4_1 : ∀ i : grid4.Coords, EltTy.bits .f32 = 32 ∨ (Rect.block (s := S800000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x3.size a ≤ S800000x3.size a
  hwx4_2 : ∀ i : grid4.Coords, EltTy.bits .f32 = 32 ∨ (Rect.block (s := S800000x3) S10000x3.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S3x1.size a ≤ S3x1.size a
  hwx4_5 : ∀ i : grid4.Coords, EltTy.bits .f32 = 32 ∨ (Rect.block (s := S3x1) S3x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x1.size a ≤ S800000x1.size a
  hwx4_7 : ∀ i : grid4.Coords, EltTy.bits .f32 = 32 ∨ (Rect.block (s := S800000x1) S10000x1.size (cc4_transform_7 i) (hinb4_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def dot_S10000x3_S3x1_S10000x1_1_0_0_1_n_n : DotDims S10000x3 S3x1 S10000x1 where
  lhsContracting := [1]
  rhsContracting := [0]
  lhsNonContracting := [0]
  rhsNonContracting := [1]
  lhsBatch := []
  rhsBatch := []
  wf := dot_S10000x3_S3x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v50) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg1) S10000x3.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v41) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42) S64x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v43) S3x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v58) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v59) S10000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000x3 : Shape := ⟨2, ![800000, 3]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S131x1 : Shape := ⟨2, ![131, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S64x1 : Shape := ⟨2, ![64, 1]⟩
abbrev S3x1 : Shape := ⟨2, ![3, 1]⟩
abbrev S1x1 : Shape := ⟨2, ![1, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x3, .f32⟩
  | .hbm, ⟨2, _⟩ => ⟨S800000, .i32⟩
  | .hbm, ⟨3, _⟩ => ⟨S800000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S131x1, .f32⟩
  | .hbm, ⟨9, _⟩ => ⟨S1, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000x64, .f32⟩
  | .hbm, ⟨59, _⟩ => ⟨S50000x64, .f32⟩
  | .hbm, ⟨60, _⟩ => ⟨S50000x1, .f32⟩
  | .hbm, ⟨61, _⟩ => ⟨S50000x64, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S50000x1, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | .hbm, ⟨83, _⟩ => ⟨S64x1, .f32⟩
  | .hbm, ⟨84, _⟩ => ⟨S64x1, .f32⟩
  | .hbm, ⟨85, _⟩ => ⟨S3x1, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x64, .f32⟩
  | .hbm, ⟨95, _⟩ => ⟨S800000x1, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x64, .f32⟩
  | .hbm, ⟨105, _⟩ => ⟨S800000x1, .f32⟩
  | .hbm, ⟨106, _⟩ => ⟨S800000x1, .f32⟩
  | .hbm, ⟨107, _⟩ => ⟨S800000x1, .f32⟩
  | .hbm, ⟨108, _⟩ => ⟨S800000x1, .f32⟩
  | .hbm, ⟨109, _⟩ => ⟨S1x1, .f32⟩
  | .hbm, ⟨110, _⟩ => ⟨S800000x1, .f32⟩
  | .hbm, ⟨111, _⟩ => ⟨S800000x1, .f32⟩
  | .hbm, ⟨112, _⟩ => ⟨S800000, .f32⟩
  | .hbm, ⟨113, _⟩ => ⟨S800000, .f32⟩
  | .hbm, ⟨114, _⟩ => ⟨S800000, .f32⟩
  | .hbm, ⟨115, _⟩ => ⟨S_, .f32⟩
  | .hbm, ⟨116, _⟩ => ⟨S800000, .f32⟩
  | .hbm, ⟨117, _⟩ => ⟨S800000, .f32⟩
  | .hbm, ⟨118, _⟩ => ⟨S_, .f32⟩
  | .hbm, ⟨119, _⟩ => ⟨S800000, .f32⟩
  | .hbm, ⟨120, _⟩ => ⟨S800000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_cst : Ref sig .tc := ⟨.hbm, 57, rfl⟩
abbrev main_call2_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_cst_16 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S131x1_S64x1_0_0 : S131x1.Slices ![0, 0] S64x1
  slices_S131x1_S64x1_64_0 : S131x1.Slices ![64, 0] S64x1
  slices_S131x1_S3x1_128_0 : S131x1.Slices ![128, 0] S3x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S800000x64_S64x1_S800000x1_1_0_0_1_n_n_wf : DotDims.WF S800000x64 S64x1 S800000x1 [1] [0] [0] [1] [] []
  dot_S800000x3_S3x1_S800000x1_1_0_0_1_n_n_wf : DotDims.WF S800000x3 S3x1 S800000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def dot_S800000x3_S3x1_S800000x1_1_0_0_1_n_n : DotDims S800000x3 S3x1 S800000x1 where
  lhsContracting := [1]
  rhsContracting := [0]
  lhsNonContracting := [0]
  rhsNonContracting := [1]
  lhsBatch := []
  rhsBatch := []
  wf := dot_S800000x3_S3x1_S800000x1_1_0_0_1_n_n_wf

class Facts : Prop extends Facts₀ where

variable [Facts]
-- ==== Proof.KRun.lean ====
/-
  The kernel program's run with its result named.

  @main is fourteen segments: stretches of host operations and five pallas_call regions.  The launch theorem for such
  a chain gives that every weakly fair execution terminates without a fault in a state whose unscoped buffers hold the
  contents at the last segment boundary (the fold `W14` of the generated frame: each host stretch applied to the
  contents before it, each region replacing its arrays by what its write-backs leave).  The frame claim reads that
  final state only at the ten argument buffers; here it is read at the result buffer as well, so that the result
  is `W14` at that buffer.
-/
import proofs.«166072_j77335181132320_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the ten argument arrays as launched. -/
theorem run_named : θ_run defs (onTc (τ := τ) (main (F := F))) ⟨m, fun _ => 0, ρ⟩ (fun r => ∀ c : Dev nD,
      r.2.mem ((c.tc : Thread nD τ).loc main_v60) = W14 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v60 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Run

end
-- ==== Proof.Spec.lean ====
/-
  The function both programs compute, stage by stage, as whole-array operations.

  A graph of 50000 nodes and 800000 edges (src e → dst e).  With
    cs n = max(1, #{e | src e = n})^(-1/2),   cd n = max(1, #{e | dst e = n})^(-1/2),
  one graph convolution of node features h with weights W, bias b is
    conv h W b = ((Σ_{e : dst e = ·} (h · cs)(src e)) · cd) W + b,
  the network is h1 = max(conv x W1 b1, 0), h2 = conv h1 W2 b2, and edge e scores
    1 / (1 + exp (-(h2(src e)·We[0:64] + h2(dst e)·We[64:128] + efeat e·We[128:131] + be))).
  Every stage below is one named piece of that composition, written with the host operations
  of the reference program, so that the reference's result is this composition by unfolding.
-/
import proofs.«166072_j77335181132320_2_alg».proof.Proof.Gen.ReferenceIdeal

noncomputable section

namespace Cert.Spec

open Cert.ReferenceIdeal Cert.ReferenceIdeal.Gen Idealize.ShloMosaic

variable {F : FTy → Type} [FloatOps F]

/-- An array of edge endpoints (node numbers, 32-bit). -/
abbrev Edges (F : FTy → Type) : Type := (⟨S800000, .i32⟩ : BufTy).Contents (Elt F)

/-- The all-ones vector over the edges. -/
def onesE : FVec F S800000 .f32 := broadcastInDim S800000 ![] bcast_S_S800000 (constant S_ .f32 0x3F800000#32)

/-- Node n ↦ max(1, number of edges whose endpoint in `idx` is n) ^ (-1/2). -/
def degNorm (idx : Edges F) : FVec F S50000 .f32 :=
  Host.powf
    (maximumf (broadcastInDim S50000 ![] bcast_S_S50000 (id (constant S_ .f32 0x3F800000#32)))
      (Host.scatterAdd scatter_S50000_S800000x1_S800000_n_0_0_1
        (broadcastInDim S50000 ![] bcast_S_S50000 (constant S_ .f32 0x00000000#32))
        (broadcastInDim S800000x1 ![0] bcast_S800000_S800000x1_0 idx)
        (broadcastInDim S800000 ![] bcast_S_S800000 (constant S_ .f32 0x3F800000#32))))
    (broadcastInDim S50000 ![] bcast_S_S50000 (constant S_ .f32 0xBF000000#32))

/-- A per-node vector as a column [50000, 1]. -/
def col (v : FVec F S50000 .f32) : FVec F S50000x1 .f32 := broadcastInDim S50000x1 ![0] bcast_S50000_S50000x1_0 v

/-- jnp's index normalisation: a negative node number n is read as n + 50000. -/
def wrap (idx : Edges F) : Edges F :=
  select (cmpi .slt idx (broadcastInDim S800000 ![] bcast_S_S800000 (constantI S_ 32 0#32)))
    (addi idx (broadcastInDim S800000 ![] bcast_S_S800000 (constantI S_ 32 50000#32))) idx

/-- Row (idx e) of a [50000, 128] table, for every edge e. -/
def rows128 (h : FVec F S50000x128 .f32) (idx : Edges F) : FVec F S800000x128 .f32 :=
  Host.gather gather_S50000x128_S800000x1_S800000x128_1_0_n_n_0_1_1128 h
    (broadcastInDim S800000x1 ![0] bcast_S800000_S800000x1_0 (wrap idx))

/-- Row (idx e) of a [50000, 64] table, for every edge e. -/
def rows64 (h : FVec F S50000x64 .f32) (idx : Edges F) : FVec F S800000x64 .f32 :=
  Host.gather gather_S50000x64_S800000x1_S800000x64_1_0_n_n_0_1_164 h
    (broadcastInDim S800000x1 ![0] bcast_S800000_S800000x1_0 (wrap idx))

/-- Node n ↦ the sum of the edge rows `u e` over the edges with idx e = n (128 features). -/
def segSum128 (u : FVec F S800000x128 .f32) (idx : Edges F) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 idx) u

/-- Node n ↦ the sum of the edge rows `u e` over the edges with idx e = n (64 features). -/
def segSum64 (u : FVec F S800000x64 .f32) (idx : Edges F) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 idx) u

/-- Every row n of `x` times the scalar c(n, 0) (128 features). -/
def scaleRows128 (x : FVec F S50000x128 .f32) (c : FVec F S50000x1 .f32) : FVec F S50000x128 .f32 :=
  mulf x (broadcastInDim S50000x128 ![0, 1] bcast_S50000x1_S50000x128_0_1 c)

/-- Every row n of `x` times the scalar c(n, 0) (64 features). -/
def scaleRows64 (x : FVec F S50000x64 .f32) (c : FVec F S50000x1 .f32) : FVec F S50000x64 .f32 :=
  mulf x (broadcastInDim S50000x64 ![0, 1] bcast_S50000x1_S50000x64_0_1 c)

/-- A bias vector as a row [1, 64]. -/
def row64 (b : FVec F S64 .f32) : FVec F S1x64 .f32 := broadcastInDim S1x64 ![1] bcast_S64_S1x64_1 b

/-- (agg scaled row by row by c) · W + b, for a [128, 64] weight matrix. -/
def dense1 (agg : FVec F S50000x128 .f32) (c : FVec F S50000x1 .f32) (W : FVec F S128x64 .f32) (b : FVec F S1x64 .f32) :
    FVec F S50000x64 .f32 :=
  addf (Host.dotGeneral dot_S50000x128_S128x64_S50000x64_1_0_0_1_n_n none (scaleRows128 agg c) W)
    (broadcastInDim S50000x64 ![0, 1] bcast_S1x64_S50000x64_0_1 b)

/-- (agg scaled row by row by c) · W + b, for a [64, 64] weight matrix. -/
def dense2 (agg : FVec F S50000x64 .f32) (c : FVec F S50000x1 .f32) (W : FVec F S64x64 .f32) (b : FVec F S1x64 .f32) :
    FVec F S50000x64 .f32 :=
  addf (Host.dotGeneral dot_S50000x64_S64x64_S50000x64_1_0_0_1_n_n none (scaleRows64 agg c) W)
    (broadcastInDim S50000x64 ![0, 1] bcast_S1x64_S50000x64_0_1 b)

/-- max(h, 0), entry by entry. -/
def relu64 (h : FVec F S50000x64 .f32) : FVec F S50000x64 .f32 :=
  maximumf h (broadcastInDim S50000x64 ![] bcast_S_S50000x64 (constant S_ .f32 0x00000000#32))

/-- The edge head before the sigmoid: hs·ws + hd·wd + ef·wf + be, a column over the edges. -/
def edgeLogits (hs hd : FVec F S800000x64 .f32) (ef : FVec F S800000x3 .f32) (ws wd : FVec F S64x1 .f32)
    (wf : FVec F S3x1 .f32) (be : FVec F S1x1 .f32) : FVec F S800000x1 .f32 :=
  addf (addf (addf (Host.dotGeneral dot_S800000x64_S64x1_S800000x1_1_0_0_1_n_n none hs ws)
      (Host.dotGeneral dot_S800000x64_S64x1_S800000x1_1_0_0_1_n_n none hd wd))
      (Host.dotGeneral dot_S800000x3_S3x1_S800000x1_1_0_0_1_n_n none ef wf))
    (broadcastInDim S800000x1 ![0, 1] bcast_S1x1_S800000x1_0_1 be)

/-- 1 / (1 + exp (-z)), entry by entry over the edges, in the host's operations. -/
def sigmoidE (z : FVec F S800000 .f32) : FVec F S800000 .f32 :=
  Host.divf (broadcastInDim S800000 ![] bcast_S_S800000 (constant S_ .f32 0x3F800000#32))
    (addf (broadcastInDim S800000 ![] bcast_S_S800000 (constant S_ .f32 0x3F800000#32)) (Host.exp (Host.negf z)))

/-- The first layer's output h1. -/
def layer1 (x : FVec F S50000x128 .f32) (src dst : Edges F) (W1 : FVec F S128x64 .f32) (b1 : FVec F S64 .f32) :
    FVec F S50000x64 .f32 :=
  relu64 (dense1 (segSum128 (rows128 (scaleRows128 x (col (degNorm src))) src) dst) (col (degNorm dst)) W1 (row64 b1))

/-- The second layer's output h2, from h1. -/
def layer2 (h1 : FVec F S50000x64 .f32) (src dst : Edges F) (W2 : FVec F S64x64 .f32) (b2 : FVec F S64 .f32) :
    FVec F S50000x64 .f32 :=
  dense2 (segSum64 (rows64 (scaleRows64 h1 (col (degNorm src))) src) dst) (col (degNorm dst)) W2 (row64 b2)

/-- The edge scores from h2. -/
def head (h2 : FVec F S50000x64 .f32) (efeat : FVec F S800000x3 .f32) (src dst : Edges F) (We : FVec F S131x1 .f32)
    (be : FVec F S1 .f32) : FVec F S800000 .f32 :=
  sigmoidE (shapeCast S800000
    (edgeLogits (rows64 h2 src) (rows64 h2 dst) efeat
      (extractStridedSlice S64x1 ![0, 0] We slices_S131x1_S64x1_0_0)
      (extractStridedSlice S64x1 ![64, 0] We slices_S131x1_S64x1_64_0)
      (extractStridedSlice S3x1 ![128, 0] We slices_S131x1_S3x1_128_0)
      (broadcastInDim S1x1 ![1] bcast_S1_S1x1_1 be))
    shapeCasts_S800000x1_S800000)

/-- The whole network. -/
def gcn (x : FVec F S50000x128 .f32) (efeat : FVec F S800000x3 .f32) (src dst : Edges F) (W1 : FVec F S128x64 .f32)
    (b1 : FVec F S64 .f32) (W2 : FVec F S64x64 .f32) (b2 : FVec F S64 .f32) (We : FVec F S131x1 .f32) (be : FVec F S1 .f32) :
    FVec F S800000 .f32 :=
  head (layer2 (layer1 x src dst W1 b1) src dst W2 b2) efeat src dst We be

end Cert.Spec

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.LibVecColumn.lean ====
/-
  A vector as a column, two spellings, and a vector as a row. A vector v of length a becomes the column [a, 1] either by a reshape (a cast
  that keeps the row-major order) or by a broadcast that sends the vector's axis to the first axis of the column.
  Both read v(p) at the entry (p, 0), so they are the same array. This is the step between a per-row count reshaped to
  a column and the same count indexed with a new trailing axis. A vector of length b reshaped to the row [1, b] reads
  v(j) at (0, j): this is how a bias vector is handed to a kernel that adds it to every row of a block.
-/
import proofs.«166072_j77335181132320_2_alg».proof.Proof.LibColumn

noncomputable section

namespace Cert.LibVecColumn

open Idealize.ShloMosaic Idealize.ShloMosaic.ValueIdx

/-- The broadcast of a vector [a] along a new trailing unit axis reads, at (p, u), the vector at p: the vector's
    one axis is sent to the column's first axis, whose coordinate is p (and if a = 1 then p = 0 anyway). -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The reshape of a vector to a column and its broadcast along a new trailing axis are the same array. -/
theorem shapeCast_eq_broadcastInDim {α : Type} {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ ![0]) :
    shapeCast ⟨2, ![a, 1]⟩ x h₁ = broadcastInDim ⟨2, ![a, 1]⟩ ![0] h₂ x := by
  funext i
  obtain ⟨p, u, rfl⟩ : ∃ (p : Fin a) (u : Fin 1), i = ix2 p u := ⟨i 0, i 1, eq_ix2 i⟩
  rw [Cert.LibColumn.shapeCast_a_a1_apply, broadcastInDim_a_a1_apply]

/-- A vector [b] cast to a row [1, b] reads, at (u, j), the vector at j: the row-major position of (u, j) in [1, b]
    is u · b + j with u = 0, the position j of the vector's entry. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibVecColumn

end
-- ==== Proof.KW5.lean ====
/-
  The buffer contents when the first pallas_call is entered.

  Before it the host computes, from the edge endpoints alone, the two degree normalisers: the scatter-add of ones
  over src (resp. dst) counts the edges leaving (entering) each node, clipped below at 1 and raised to -1/2, then
  reshaped to a column.  Read through the five stretches of host operations, the column buffers hold that function
  of the launch contents of src and dst (the reshape [50000] → [50000, 1] being the same array as the broadcast
  along a new trailing axis), and no argument array has been written.
-/
import proofs.«166072_j77335181132320_2_alg».proof.Proof.Gen.KernelIdeal.Frame
import proofs.«166072_j77335181132320_2_alg».proof.Proof.Spec
import proofs.«166072_j77335181132320_2_alg».proof.Proof.LibVecColumn
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The out-degree normaliser, as a column. -/
theorem w5_v11 : W5 m ρ c (Proc.devRef .tc main_v11) = Cert.Spec.col (Cert.Spec.degNorm (m ((c : Thread nD τ).loc main_arg2))) := by
  show StableHlo.after hostOps0_4 (StableHlo.after hostOps0_3 (StableHlo.after hostOps0_2 (StableHlo.after hostOps0_1 (StableHlo.after hostOps0 (W0 m ρ c))))) (Proc.devRef .tc main_v11) = _
  after_results
  exact Cert.LibVecColumn.shapeCast_eq_broadcastInDim (Cert.Spec.degNorm (m ((c : Thread nD τ).loc main_arg2))) shapeCasts_S50000_S50000x1 Cert.ReferenceIdeal.Gen.bcast_S50000_S50000x1_0

/-- The in-degree normaliser, as a column. -/
theorem w5_v14 : W5 m ρ c (Proc.devRef .tc main_v14) = Cert.Spec.col (Cert.Spec.degNorm (m ((c : Thread nD τ).loc main_arg3))) := by
  show StableHlo.after hostOps0_4 (StableHlo.after hostOps0_3 (StableHlo.after hostOps0_2 (StableHlo.after hostOps0_1 (StableHlo.after hostOps0 (W0 m ρ c))))) (Proc.devRef .tc main_v14) = _
  after_results
  exact Cert.LibVecColumn.shapeCast_eq_broadcastInDim (Cert.Spec.degNorm (m ((c : Thread nD τ).loc main_arg3))) shapeCasts_S50000_S50000x1 Cert.ReferenceIdeal.Gen.bcast_S50000_S50000x1_0

/-- Argument 0 is as launched. -/
theorem w5_arg0 : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  after_results

/-- Argument 1 is as launched. -/
theorem w5_arg1 : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  after_results

/-- Argument 2 is as launched. -/
theorem w5_arg2 : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  after_results

/-- Argument 3 is as launched. -/
theorem w5_arg3 : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results

/-- Argument 4 is as launched. -/
theorem w5_arg4 : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  after_results

/-- Argument 5 is as launched. -/
theorem w5_arg5 : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  after_results

/-- Argument 6 is as launched. -/
theorem w5_arg6 : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results

/-- Argument 7 is as launched. -/
theorem w5_arg7 : W5 m ρ c (Proc.devRef .tc main_arg7) = m ((c : Thread nD τ).loc main_arg7) := by
  show StableHlo.after hostOps0_4 (StableHlo.after hostOps0_3 (StableHlo.after hostOps0_2 (StableHlo.after hostOps0_1 (StableHlo.after hostOps0 (W0 m ρ c))))) (Proc.devRef .tc main_arg7) = _
  after_results

/-- Argument 8 is as launched. -/
theorem w5_arg8 : W5 m ρ c (Proc.devRef .tc main_arg8) = m ((c : Thread nD τ).loc main_arg8) := by
  show StableHlo.after hostOps0_4 (StableHlo.after hostOps0_3 (StableHlo.after hostOps0_2 (StableHlo.after hostOps0_1 (StableHlo.after hostOps0 (W0 m ρ c))))) (Proc.devRef .tc main_arg8) = _
  after_results

/-- Argument 9 is as launched. -/
theorem w5_arg9 : W5 m ρ c (Proc.devRef .tc main_arg9) = m ((c : Thread nD τ).loc main_arg9) := by
  show StableHlo.after hostOps0_4 (StableHlo.after hostOps0_3 (StableHlo.after hostOps0_2 (StableHlo.after hostOps0_1 (StableHlo.after hostOps0 (W0 m ρ c))))) (Proc.devRef .tc main_arg9) = _
  after_results

end Cert.KernelIdeal.KValue

end
-- ==== Proof.LibRowVector.lean ====
/-
  A vector as a row, two spellings. A vector v of length b becomes the row [1, b] either by a reshape (a cast that
  keeps the row-major order) or by a broadcast that sends the vector's axis to the second axis of the row. Both
  read v(j) at the entry (0, j), so they are the same array. This is the step between a bias vector reshaped to a
  row for a kernel that adds it to every row of a block, and the same vector indexed with a new leading axis.
-/
import proofs.«166072_j77335181132320_2_alg».proof.Proof.LibVecColumn

noncomputable section

namespace Cert.LibRowVector

open Idealize.ShloMosaic Idealize.ShloMosaic.ValueIdx

/-- The broadcast of a vector [b] along a new leading unit axis reads, at (u, j), the vector at j: the vector's one
    axis is sent to the row's second axis, whose coordinate is j (and if b = 1 then j = 0 anyway). -/
theorem broadcastInDim_b_1b_apply {α : Type} {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The reshape of a vector to a row and its broadcast along a new leading axis are the same array. -/
theorem shapeCast_eq_broadcastInDim {α : Type} {b : ℕ} (x : (⟨1, ![b]⟩ : Shape).Idx → α)
    (h₁ : (⟨1, ![b]⟩ : Shape).ShapeCasts ⟨2, ![1, b]⟩)
    (h₂ : (⟨1, ![b]⟩ : Shape).BroadcastsInDim ⟨2, ![1, b]⟩ ![1]) :
    shapeCast ⟨2, ![1, b]⟩ x h₁ = broadcastInDim ⟨2, ![1, b]⟩ ![1] h₂ x := by
  funext i
  obtain ⟨u, j, rfl⟩ : ∃ (u : Fin 1) (j : Fin b), i = ix2 u j := ⟨i 0, i 1, eq_ix2 i⟩
  rw [Cert.LibVecColumn.shapeCast_b_1b_apply, broadcastInDim_b_1b_apply]

end Cert.LibRowVector

end
-- ==== Proof.KW7.lean ====
/-
  The buffer contents from the first pallas_call to the entry of the second.

  The first region multiplies every row of x by the out-degree normaliser of its node; the host then takes, for every
  edge, the scaled row of its source node and adds it into the row of its destination node, and reshapes the first
  bias to a row.  Each buffer that a later stage reads is followed here through the region's exit (its output array
  replaced, every other buffer kept) and through the host stretch, and stated as a function of the launch contents.
-/
import proofs.«166072_j77335181132320_2_alg».proof.Proof.KW5
import proofs.«166072_j77335181132320_2_alg».proof.Proof.LibRowVector

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What the first row-scaling region leaves in its output array, whatever contents `V` it is entered with. -/
def Region0 : Prop := ∀ (V : (c : Dev nD) → (b : Ref sig .tc) → Buf (Elt Ideal) ((c : Thread nD τ).loc b)) (c : Dev nD),
  (dat0 (F := Ideal) V c).arrAt 2 cfg0.N = Cert.Spec.scaleRows128 (F := Ideal) (V c main_arg0) (V c main_v11)

/-- x with every row scaled by its node's out-degree normaliser. -/
theorem w6_v15 (h0 : Region0) : W6 m ρ c (Proc.devRef .tc main_v15) = (Cert.Spec.scaleRows128 (F := Ideal) (m ((c : Thread nD τ).loc main_arg0)) (Cert.Spec.col (F := Ideal) (Cert.Spec.degNorm (F := Ideal) (m ((c : Thread nD τ).loc main_arg2))))) :=
  (W6_arr m ρ c 2).trans ((h0 (V5 m ρ) c).trans (congrArg₂ (Cert.Spec.scaleRows128 (F := Ideal)) (w5_arg0 m ρ c) (w5_v11 m ρ c)))

theorem w6_v11 : W6 m ρ c (Proc.devRef .tc main_v11) = (Cert.Spec.col (F := Ideal) (Cert.Spec.degNorm (F := Ideal) (m ((c : Thread nD τ).loc main_arg2)))) :=
  ((W6_arr m ρ c 1).trans (((dat0 (V5 m ρ) c).arrAt_in 1 rfl _).trans (A_eq0 (V5 m ρ) c 1))).trans (w5_v11 m ρ c)

theorem w6_v14 : W6 m ρ c (Proc.devRef .tc main_v14) = (Cert.Spec.col (F := Ideal) (Cert.Spec.degNorm (F := Ideal) (m ((c : Thread nD τ).loc main_arg3)))) :=
  (W6_of_ne m ρ c main_v14 (by decide)).trans (w5_v14 m ρ c)

theorem w6_arg1 : W6 m ρ c (Proc.devRef .tc main_arg1) = m ((c : Thread nD τ).loc main_arg1) :=
  (W6_of_ne m ρ c main_arg1 (by decide)).trans (w5_arg1 m ρ c)

theorem w6_arg2 : W6 m ρ c (Proc.devRef .tc main_arg2) = m ((c : Thread nD τ).loc main_arg2) :=
  (W6_of_ne m ρ c main_arg2 (by decide)).trans (w5_arg2 m ρ c)

theorem w6_arg3 : W6 m ρ c (Proc.devRef .tc main_arg3) = m ((c : Thread nD τ).loc main_arg3) :=
  (W6_of_ne m ρ c main_arg3 (by decide)).trans (w5_arg3 m ρ c)

theorem w6_arg4 : W6 m ρ c (Proc.devRef .tc main_arg4) = m ((c : Thread nD τ).loc main_arg4) :=
  (W6_of_ne m ρ c main_arg4 (by decide)).trans (w5_arg4 m ρ c)

theorem w6_arg5 : W6 m ρ c (Proc.devRef .tc main_arg5) = m ((c : Thread nD τ).loc main_arg5) :=
  (W6_of_ne m ρ c main_arg5 (by decide)).trans (w5_arg5 m ρ c)

theorem w6_arg6 : W6 m ρ c (Proc.devRef .tc main_arg6) = m ((c : Thread nD τ).loc main_arg6) :=
  (W6_of_ne m ρ c main_arg6 (by decide)).trans (w5_arg6 m ρ c)

theorem w6_arg7 : W6 m ρ c (Proc.devRef .tc main_arg7) = m ((c : Thread nD τ).loc main_arg7) :=
  (W6_of_ne m ρ c main_arg7 (by decide)).trans (w5_arg7 m ρ c)

theorem w6_arg8 : W6 m ρ c (Proc.devRef .tc main_arg8) = m ((c : Thread nD τ).loc main_arg8) :=
  (W6_of_ne m ρ c main_arg8 (by decide)).trans (w5_arg8 m ρ c)

theorem w6_arg9 : W6 m ρ c (Proc.devRef .tc main_arg9) = m ((c : Thread nD τ).loc main_arg9) :=
  (W6_of_ne m ρ c main_arg9 (by decide)).trans (w5_arg9 m ρ c)

/-- The first aggregation: node n gets the sum, over the edges entering n, of the scaled row of the edge's source. -/
theorem w7_v25 (h0 : Region0) : W7 m ρ c (Proc.devRef .tc main_v25) = (Cert.Spec.segSum128 (F := Ideal) (Cert.Spec.rows128 (F := Ideal) (Cert.Spec.scaleRows128 (F := Ideal) (m ((c : Thread nD τ).loc main_arg0)) (Cert.Spec.col (F := Ideal) (Cert.Spec.degNorm (F := Ideal) (m ((c : Thread nD τ).loc main_arg2))))) (m ((c : Thread nD τ).loc main_arg2))) (m ((c : Thread nD τ).loc main_arg3))) := by
  show StableHlo.after hostOps1 (W6 m ρ c) (Proc.devRef .tc main_v25) = _
  after_results_simp
  rw [w6_v15 m ρ c h0, w6_arg2 m ρ c, w6_arg3 m ρ c]
  rfl

/-- The first bias as a row: the reshape [64] → [1, 64] is the broadcast along a new leading axis. -/
theorem w7_v26 : W7 m ρ c (Proc.devRef .tc main_v26) = (Cert.Spec.row64 (F := Ideal) (m ((c : Thread nD τ).loc main_arg5))) := by
  show StableHlo.after hostOps1 (W6 m ρ c) (Proc.devRef .tc main_v26) = _
  after_results_simp
  rw [w6_arg5 m ρ c]
  exact Cert.LibRowVector.shapeCast_eq_broadcastInDim (m ((c : Thread nD τ).loc main_arg5)) shapeCasts_S64_S1x64 Cert.ReferenceIdeal.Gen.bcast_S64_S1x64_1

theorem w7_v11 : W7 m ρ c (Proc.devRef .tc main_v11) = (Cert.Spec.col (F := Ideal) (Cert.Spec.degNorm (F := Ideal) (m ((c : Thread nD τ).loc main_arg2)))) := by
  show StableHlo.after hostOps1 (W6 m ρ c) (Proc.devRef .tc main_v11) = _
  after_results_simp
  exact w6_v11 m ρ c

theorem w7_v14 : W7 m ρ c (Proc.devRef .tc main_v14) = (Cert.Spec.col (F := Ideal) (Cert.Spec.degNorm (F := Ideal) (m ((c : Thread nD τ).loc main_arg3)))) := by
  show StableHlo.after hostOps1 (W6 m ρ c) (Proc.devRef .tc main_v14) = _
  after_results_simp
  exact w6_v14 m ρ c

theorem w7_arg1 : W7 m ρ c (Proc.devRef .tc main_arg1) = m ((c : Thread nD τ).loc main_arg1) := by
  show StableHlo.after hostOps1 (W6 m ρ c) (Proc.devRef .tc main_arg1) = _
  after_results_simp
  exact w6_arg1 m ρ c

theorem w7_arg2 : W7 m ρ c (Proc.devRef .tc main_arg2) = m ((c : Thread nD τ).loc main_arg2) := by
  show StableHlo.after hostOps1 (W6 m ρ c) (Proc.devRef .tc main_arg2) = _
  after_results_simp
  exact w6_arg2 m ρ c

theorem w7_arg3 : W7 m ρ c (Proc.devRef .tc main_arg3) = m ((c : Thread nD τ).loc main_arg3) := by
  show StableHlo.after hostOps1 (W6 m ρ c) (Proc.devRef .tc main_arg3) = _
  after_results_simp
  exact w6_arg3 m ρ c

theorem w7_arg4 : W7 m ρ c (Proc.devRef .tc main_arg4) = m ((c : Thread nD τ).loc main_arg4) := by
  show StableHlo.after hostOps1 (W6 m ρ c) (Proc.devRef .tc main_arg4) = _
  after_results_simp
  exact w6_arg4 m ρ c

theorem w7_arg6 : W7 m ρ c (Proc.devRef .tc main_arg6) = m ((c : Thread nD τ).loc main_arg6) := by
  show StableHlo.after hostOps1 (W6 m ρ c) (Proc.devRef .tc main_arg6) = _
  after_results_simp
  exact w6_arg6 m ρ c

theorem w7_arg7 : W7 m ρ c (Proc.devRef .tc main_arg7) = m ((c : Thread nD τ).loc main_arg7) := by
  show StableHlo.after hostOps1 (W6 m ρ c) (Proc.devRef .tc main_arg7) = _
  after_results_simp
  exact w6_arg7 m ρ c

theorem w7_arg8 : W7 m ρ c (Proc.devRef .tc main_arg8) = m ((c : Thread nD τ).loc main_arg8) := by
  show StableHlo.after hostOps1 (W6 m ρ c) (Proc.devRef .tc main_arg8) = _
  after_results_simp
  exact w6_arg8 m ρ c

theorem w7_arg9 : W7 m ρ c (Proc.devRef .tc main_arg9) = m ((c : Thread nD τ).loc main_arg9) := by
  show StableHlo.after hostOps1 (W6 m ρ c) (Proc.devRef .tc main_arg9) = _
  after_results_simp
  exact w6_arg9 m ρ c

end Cert.KernelIdeal.KValue

end
-- ==== Proof.KW10.lean ====
/-
  The buffer contents from the second pallas_call to the entry of the fourth.

  The second region turns the first aggregation into the first layer's output h1 (scale by the in-degree normaliser,
  multiply by W1, add b1, clamp at zero); the third scales the rows of h1 by the out-degree normaliser; the host then
  aggregates over the edges as before and reshapes the second bias.  Each buffer a later stage reads is followed through
  the two region exits and the host stretch and stated as a function of the launch contents.
-/
import proofs.«166072_j77335181132320_2_alg».proof.Proof.KW7

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What the first dense region leaves in its output array, whatever contents `V` it is entered with. -/
def Region1 : Prop := ∀ (V : (c : Dev nD) → (b : Ref sig .tc) → Buf (Elt Ideal) ((c : Thread nD τ).loc b)) (c : Dev nD),
  (dat1 (F := Ideal) V c).arrAt 4 cfg1.N
    = Cert.Spec.relu64 (F := Ideal) (Cert.Spec.dense1 (F := Ideal) (V c main_v25) (V c main_v14) (V c main_arg4) (V c main_v26))

/-- What the second row-scaling region leaves in its output array. -/
def Region2 : Prop := ∀ (V : (c : Dev nD) → (b : Ref sig .tc) → Buf (Elt Ideal) ((c : Thread nD τ).loc b)) (c : Dev nD),
  (dat2 (F := Ideal) V c).arrAt 2 cfg2.N = Cert.Spec.scaleRows64 (F := Ideal) (V c main_v27) (V c main_v11)

/-- A function of four arguments at equal arguments. -/
theorem congr4 {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

/-- The first layer's output h1. -/
theorem w8_v27 (h0 : Region0) (h1 : Region1) : W8 m ρ c (Proc.devRef .tc main_v27) = (Cert.Spec.layer1 (F := Ideal) (m ((c : Thread nD τ).loc main_arg0)) (m ((c : Thread nD τ).loc main_arg2)) (m ((c : Thread nD τ).loc main_arg3)) (m ((c : Thread nD τ).loc main_arg4)) (m ((c : Thread nD τ).loc main_arg5))) :=
  (W8_arr m ρ c 4).trans ((h1 (V7 m ρ) c).trans (congrArg (Cert.Spec.relu64 (F := Ideal))
    (congr4 (Cert.Spec.dense1 (F := Ideal)) (w7_v25 m ρ c h0) (w7_v14 m ρ c) (w7_arg4 m ρ c) (w7_v26 m ρ c))))

theorem w8_v14 : W8 m ρ c (Proc.devRef .tc main_v14) = (Cert.Spec.col (F := Ideal) (Cert.Spec.degNorm (F := Ideal) (m ((c : Thread nD τ).loc main_arg3)))) :=
  ((W8_arr m ρ c 1).trans (((dat1 (V7 m ρ) c).arrAt_in 1 rfl _).trans (A_eq1 (V7 m ρ) c 1))).trans (w7_v14 m ρ c)

theorem w8_v11 : W8 m ρ c (Proc.devRef .tc main_v11) = (Cert.Spec.col (F := Ideal) (Cert.Spec.degNorm (F := Ideal) (m ((c : Thread nD τ).loc main_arg2)))) :=
  (W8_of_ne m ρ c main_v11 (by decide)).trans (w7_v11 m ρ c)

theorem w8_arg1 : W8 m ρ c (Proc.devRef .tc main_arg1) = m ((c : Thread nD τ).loc main_arg1) :=
  (W8_of_ne m ρ c main_arg1 (by decide)).trans (w7_arg1 m ρ c)

theorem w8_arg2 : W8 m ρ c (Proc.devRef .tc main_arg2) = m ((c : Thread nD τ).loc main_arg2) :=
  (W8_of_ne m ρ c main_arg2 (by decide)).trans (w7_arg2 m ρ c)

theorem w8_arg3 : W8 m ρ c (Proc.devRef .tc main_arg3) = m ((c : Thread nD τ).loc main_arg3) :=
  (W8_of_ne m ρ c main_arg3 (by decide)).trans (w7_arg3 m ρ c)

theorem w8_arg6 : W8 m ρ c (Proc.devRef .tc main_arg6) = m ((c : Thread nD τ).loc main_arg6) :=
  (W8_of_ne m ρ c main_arg6 (by decide)).trans (w7_arg6 m ρ c)

theorem w8_arg7 : W8 m ρ c (Proc.devRef .tc main_arg7) = m ((c : Thread nD τ).loc main_arg7) :=
  (W8_of_ne m ρ c main_arg7 (by decide)).trans (w7_arg7 m ρ c)

theorem w8_arg8 : W8 m ρ c (Proc.devRef .tc main_arg8) = m ((c : Thread nD τ).loc main_arg8) :=
  (W8_of_ne m ρ c main_arg8 (by decide)).trans (w7_arg8 m ρ c)

theorem w8_arg9 : W8 m ρ c (Proc.devRef .tc main_arg9) = m ((c : Thread nD τ).loc main_arg9) :=
  (W8_of_ne m ρ c main_arg9 (by decide)).trans (w7_arg9 m ρ c)

/-- h1 with every row scaled by its node's out-degree normaliser. -/
theorem w9_v28 (h0 : Region0) (h1 : Region1) (h2 : Region2) : W9 m ρ c (Proc.devRef .tc main_v28) = (Cert.Spec.scaleRows64 (F := Ideal) (Cert.Spec.layer1 (F := Ideal) (m ((c : Thread nD τ).loc main_arg0)) (m ((c : Thread nD τ).loc main_arg2)) (m ((c : Thread nD τ).loc main_arg3)) (m ((c : Thread nD τ).loc main_arg4)) (m ((c : Thread nD τ).loc main_arg5))) (Cert.Spec.col (F := Ideal) (Cert.Spec.degNorm (F := Ideal) (m ((c : Thread nD τ).loc main_arg2))))) :=
  (W9_arr m ρ c 2).trans ((h2 (V8 m ρ) c).trans (congrArg₂ (Cert.Spec.scaleRows64 (F := Ideal)) (w8_v27 m ρ c h0 h1) (w8_v11 m ρ c)))

theorem w9_v14 : W9 m ρ c (Proc.devRef .tc main_v14) = (Cert.Spec.col (F := Ideal) (Cert.Spec.degNorm (F := Ideal) (m ((c : Thread nD τ).loc main_arg3)))) :=
  (W9_of_ne m ρ c main_v14 (by decide)).trans (w8_v14 m ρ c)

theorem w9_arg1 : W9 m ρ c (Proc.devRef .tc main_arg1) = m ((c : Thread nD τ).loc main_arg1) :=
  (W9_of_ne m ρ c main_arg1 (by decide)).trans (w8_arg1 m ρ c)

theorem w9_arg2 : W9 m ρ c (Proc.devRef .tc main_arg2) = m ((c : Thread nD τ).loc main_arg2) :=
  (W9_of_ne m ρ c main_arg2 (by decide)).trans (w8_arg2 m ρ c)

theorem w9_arg3 : W9 m ρ c (Proc.devRef .tc main_arg3) = m ((c : Thread nD τ).loc main_arg3) :=
  (W9_of_ne m ρ c main_arg3 (by decide)).trans (w8_arg3 m ρ c)

theorem w9_arg6 : W9 m ρ c (Proc.devRef .tc main_arg6) = m ((c : Thread nD τ).loc main_arg6) :=
  (W9_of_ne m ρ c main_arg6 (by decide)).trans (w8_arg6 m ρ c)

theorem w9_arg7 : W9 m ρ c (Proc.devRef .tc main_arg7) = m ((c : Thread nD τ).loc main_arg7) :=
  (W9_of_ne m ρ c main_arg7 (by decide)).trans (w8_arg7 m ρ c)

theorem w9_arg8 : W9 m ρ c (Proc.devRef .tc main_arg8) = m ((c : Thread nD τ).loc main_arg8) :=
  (W9_of_ne m ρ c main_arg8 (by decide)).trans (w8_arg8 m ρ c)

theorem w9_arg9 : W9 m ρ c (Proc.devRef .tc main_arg9) = m ((c : Thread nD τ).loc main_arg9) :=
  (W9_of_ne m ρ c main_arg9 (by decide)).trans (w8_arg9 m ρ c)

/-- The second aggregation: node n gets the sum, over the edges entering n, of the scaled row of h1 at the edge's source. -/
theorem w10_v38 (h0 : Region0) (h1 : Region1) (h2 : Region2) : W10 m ρ c (Proc.devRef .tc main_v38) = (Cert.Spec.segSum64 (F := Ideal) (Cert.Spec.rows64 (F := Ideal) (Cert.Spec.scaleRows64 (F := Ideal) (Cert.Spec.layer1 (F := Ideal) (m ((c : Thread nD τ).loc main_arg0)) (m ((c : Thread nD τ).loc main_arg2)) (m ((c : Thread nD τ).loc main_arg3)) (m ((c : Thread nD τ).loc main_arg4)) (m ((c : Thread nD τ).loc main_arg5))) (Cert.Spec.col (F := Ideal) (Cert.Spec.degNorm (F := Ideal) (m ((c : Thread nD τ).loc main_arg2))))) (m ((c : Thread nD τ).loc main_arg2))) (m ((c : Thread nD τ).loc main_arg3))) := by
  show StableHlo.after hostOps3 (W9 m ρ c) (Proc.devRef .tc main_v38) = _
  after_results_simp
  rw [w9_v28 m ρ c h0 h1 h2, w9_arg2 m ρ c, w9_arg3 m ρ c]
  rfl

/-- The second bias as a row. -/
theorem w10_v39 : W10 m ρ c (Proc.devRef .tc main_v39) = (Cert.Spec.row64 (F := Ideal) (m ((c : Thread nD τ).loc main_arg7))) := by
  show StableHlo.after hostOps3 (W9 m ρ c) (Proc.devRef .tc main_v39) = _
  after_results_simp
  rw [w9_arg7 m ρ c]
  exact Cert.LibRowVector.shapeCast_eq_broadcastInDim (m ((c : Thread nD τ).loc main_arg7)) shapeCasts_S64_S1x64 Cert.ReferenceIdeal.Gen.bcast_S64_S1x64_1

theorem w10_v14 : W10 m ρ c (Proc.devRef .tc main_v14) = (Cert.Spec.col (F := Ideal) (Cert.Spec.degNorm (F := Ideal) (m ((c : Thread nD τ).loc main_arg3)))) := by
  show StableHlo.after hostOps3 (W9 m ρ c) (Proc.devRef .tc main_v14) = _
  after_results_simp
  exact w9_v14 m ρ c

theorem w10_arg1 : W10 m ρ c (Proc.devRef .tc main_arg1) = m ((c : Thread nD τ).loc main_arg1) := by
  show StableHlo.after hostOps3 (W9 m ρ c) (Proc.devRef .tc main_arg1) = _
  after_results_simp
  exact w9_arg1 m ρ c

theorem w10_arg2 : W10 m ρ c (Proc.devRef .tc main_arg2) = m ((c : Thread nD τ).loc main_arg2) := by
  show StableHlo.after hostOps3 (W9 m ρ c) (Proc.devRef .tc main_arg2) = _
  after_results_simp
  exact w9_arg2 m ρ c

theorem w10_arg3 : W10 m ρ c (Proc.devRef .tc main_arg3) = m ((c : Thread nD τ).loc main_arg3) := by
  show StableHlo.after hostOps3 (W9 m ρ c) (Proc.devRef .tc main_arg3) = _
  after_results_simp
  exact w9_arg3 m ρ c

theorem w10_arg6 : W10 m ρ c (Proc.devRef .tc main_arg6) = m ((c : Thread nD τ).loc main_arg6) := by
  show StableHlo.after hostOps3 (W9 m ρ c) (Proc.devRef .tc main_arg6) = _
  after_results_simp
  exact w9_arg6 m ρ c

theorem w10_arg8 : W10 m ρ c (Proc.devRef .tc main_arg8) = m ((c : Thread nD τ).loc main_arg8) := by
  show StableHlo.after hostOps3 (W9 m ρ c) (Proc.devRef .tc main_arg8) = _
  after_results_simp
  exact w9_arg8 m ρ c

theorem w10_arg9 : W10 m ρ c (Proc.devRef .tc main_arg9) = m ((c : Thread nD τ).loc main_arg9) := by
  show StableHlo.after hostOps3 (W9 m ρ c) (Proc.devRef .tc main_arg9) = _
  after_results_simp
  exact w9_arg9 m ρ c

end Cert.KernelIdeal.KValue

end
-- ==== Proof.KW14.lean ====
/-
  The buffer contents from the fourth pallas_call to the return.

  The fourth region turns the second aggregation into the second layer's output h2; the host slices the edge weights
  into their three parts, takes the rows of h2 at each edge's source and destination, and reshapes the edge bias; the
  fifth region scores every edge; the host flattens the column of scores.  The result buffer therefore holds the
  specification's network of the launch contents: the sigmoid the last region applies entry by entry is, on the
  extended reals, 1 / (1 + exp (-z)) in the host's operations, and it commutes with the flattening.
-/
import proofs.«166072_j77335181132320_2_alg».proof.Proof.KW10

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What the second dense region leaves in its output array, whatever contents `V` it is entered with. -/
def Region3 : Prop := ∀ (V : (c : Dev nD) → (b : Ref sig .tc) → Buf (Elt Ideal) ((c : Thread nD τ).loc b)) (c : Dev nD),
  (dat3 (F := Ideal) V c).arrAt 4 cfg3.N
    = Cert.Spec.dense2 (F := Ideal) (V c main_v38) (V c main_v14) (V c main_arg6) (V c main_v39)

/-- What the edge-scoring region leaves in its output array. -/
def Region4 : Prop := ∀ (V : (c : Dev nD) → (b : Ref sig .tc) → Buf (Elt Ideal) ((c : Thread nD τ).loc b)) (c : Dev nD),
  (dat4 (F := Ideal) V c).arrAt 7 cfg4.N
    = logistic (Cert.Spec.edgeLogits (F := Ideal) (V c main_v50) (V c main_v57) (V c main_arg1) (V c main_v41) (V c main_v42)
        (V c main_v43) (V c main_v58))

/-- A function of seven arguments at equal arguments. -/
theorem congr7 {α₁ α₂ α₃ α₄ α₅ α₆ α₇ β : Type} (f : α₁ → α₂ → α₃ → α₄ → α₅ → α₆ → α₇ → β)
    {a₁ b₁ : α₁} {a₂ b₂ : α₂} {a₃ b₃ : α₃} {a₄ b₄ : α₄} {a₅ b₅ : α₅} {a₆ b₆ : α₆} {a₇ b₇ : α₇}
    (h₁ : a₁ = b₁) (h₂ : a₂ = b₂) (h₃ : a₃ = b₃) (h₄ : a₄ = b₄) (h₅ : a₅ = b₅) (h₆ : a₆ = b₆) (h₇ : a₇ = b₇) :
    f a₁ a₂ a₃ a₄ a₅ a₆ a₇ = f b₁ b₂ b₃ b₄ b₅ b₆ b₇ := by
  subst h₁ h₂ h₃ h₄ h₅ h₆ h₇; rfl

/-- The second layer's output h2. -/
theorem w11_v40 (h0 : Region0) (h1 : Region1) (h2 : Region2) (h3 : Region3) :
    W11 m ρ c (Proc.devRef .tc main_v40) = (Cert.Spec.layer2 (F := Ideal) (Cert.Spec.layer1 (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7))) :=
  (W11_arr m ρ c 4).trans ((h3 (V10 m ρ) c).trans
    (congr4 (Cert.Spec.dense2 (F := Ideal)) (w10_v38 m ρ c h0 h1 h2) (w10_v14 m ρ c) (w10_arg6 m ρ c) (w10_v39 m ρ c)))

theorem w11_arg1 : W11 m ρ c (Proc.devRef .tc main_arg1) = m ((c : Thread nD τ).loc main_arg1) :=
  (W11_of_ne m ρ c main_arg1 (by decide)).trans (w10_arg1 m ρ c)

theorem w11_arg2 : W11 m ρ c (Proc.devRef .tc main_arg2) = m ((c : Thread nD τ).loc main_arg2) :=
  (W11_of_ne m ρ c main_arg2 (by decide)).trans (w10_arg2 m ρ c)

theorem w11_arg3 : W11 m ρ c (Proc.devRef .tc main_arg3) = m ((c : Thread nD τ).loc main_arg3) :=
  (W11_of_ne m ρ c main_arg3 (by decide)).trans (w10_arg3 m ρ c)

theorem w11_arg8 : W11 m ρ c (Proc.devRef .tc main_arg8) = m ((c : Thread nD τ).loc main_arg8) :=
  (W11_of_ne m ρ c main_arg8 (by decide)).trans (w10_arg8 m ρ c)

theorem w11_arg9 : W11 m ρ c (Proc.devRef .tc main_arg9) = m ((c : Thread nD τ).loc main_arg9) :=
  (W11_of_ne m ρ c main_arg9 (by decide)).trans (w10_arg9 m ρ c)

/-- The rows of h2 at each edge's source. -/
theorem w12_v50 (h0 : Region0) (h1 : Region1) (h2 : Region2) (h3 : Region3) :
    W12 m ρ c (Proc.devRef .tc main_v50) = Cert.Spec.rows64 (F := Ideal) (Cert.Spec.layer2 (F := Ideal) (Cert.Spec.layer1 (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7))) (m ((c : Thread nD τ).loc main_arg2)) := by
  show StableHlo.after hostOps4 (W11 m ρ c) (Proc.devRef .tc main_v50) = _
  after_results_simp
  rw [w11_v40 m ρ c h0 h1 h2 h3, w11_arg2 m ρ c]
  rfl

/-- The rows of h2 at each edge's destination. -/
theorem w12_v57 (h0 : Region0) (h1 : Region1) (h2 : Region2) (h3 : Region3) :
    W12 m ρ c (Proc.devRef .tc main_v57) = Cert.Spec.rows64 (F := Ideal) (Cert.Spec.layer2 (F := Ideal) (Cert.Spec.layer1 (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7))) (m ((c : Thread nD τ).loc main_arg3)) := by
  show StableHlo.after hostOps4 (W11 m ρ c) (Proc.devRef .tc main_v57) = _
  after_results_simp
  rw [w11_v40 m ρ c h0 h1 h2 h3, w11_arg3 m ρ c]
  rfl

/-- The edge weights' part that multiplies the source's features. -/
theorem w12_v41 : W12 m ρ c (Proc.devRef .tc main_v41)
    = extractStridedSlice Cert.ReferenceIdeal.S64x1 ![0, 0] (m ((c : Thread nD τ).loc main_arg8)) Cert.ReferenceIdeal.Gen.slices_S131x1_S64x1_0_0 := by
  show StableHlo.after hostOps4 (W11 m ρ c) (Proc.devRef .tc main_v41) = _
  after_results_simp
  rw [w11_arg8 m ρ c]

/-- The edge weights' part that multiplies the destination's features. -/
theorem w12_v42 : W12 m ρ c (Proc.devRef .tc main_v42)
    = extractStridedSlice Cert.ReferenceIdeal.S64x1 ![64, 0] (m ((c : Thread nD τ).loc main_arg8)) Cert.ReferenceIdeal.Gen.slices_S131x1_S64x1_64_0 := by
  show StableHlo.after hostOps4 (W11 m ρ c) (Proc.devRef .tc main_v42) = _
  after_results_simp
  rw [w11_arg8 m ρ c]

/-- The edge weights' part that multiplies the edge's own features. -/
theorem w12_v43 : W12 m ρ c (Proc.devRef .tc main_v43)
    = extractStridedSlice Cert.ReferenceIdeal.S3x1 ![128, 0] (m ((c : Thread nD τ).loc main_arg8)) Cert.ReferenceIdeal.Gen.slices_S131x1_S3x1_128_0 := by
  show StableHlo.after hostOps4 (W11 m ρ c) (Proc.devRef .tc main_v43) = _
  after_results_simp
  rw [w11_arg8 m ρ c]

/-- The edge bias as a [1, 1] array: the reshape [1] → [1, 1] is the broadcast along a new leading axis. -/
theorem w12_v58 : W12 m ρ c (Proc.devRef .tc main_v58)
    = broadcastInDim Cert.ReferenceIdeal.S1x1 ![1] Cert.ReferenceIdeal.Gen.bcast_S1_S1x1_1 (m ((c : Thread nD τ).loc main_arg9)) := by
  show StableHlo.after hostOps4 (W11 m ρ c) (Proc.devRef .tc main_v58) = _
  after_results_simp
  rw [w11_arg9 m ρ c]
  exact Cert.LibRowVector.shapeCast_eq_broadcastInDim (m ((c : Thread nD τ).loc main_arg9)) shapeCasts_S1_S1x1 Cert.ReferenceIdeal.Gen.bcast_S1_S1x1_1

theorem w12_arg1 : W12 m ρ c (Proc.devRef .tc main_arg1) = m ((c : Thread nD τ).loc main_arg1) := by
  show StableHlo.after hostOps4 (W11 m ρ c) (Proc.devRef .tc main_arg1) = _
  after_results_simp
  exact w11_arg1 m ρ c

/-- The column of edge scores after the last region: the sigmoid of the edge head's sums. -/
theorem w13_v59 (h0 : Region0) (h1 : Region1) (h2 : Region2) (h3 : Region3) (h4 : Region4) :
    W13 m ρ c (Proc.devRef .tc main_v59) = logistic (Cert.Spec.edgeLogits (F := Ideal) (Cert.Spec.rows64 (F := Ideal) (Cert.Spec.layer2 (F := Ideal) (Cert.Spec.layer1 (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7))) (m ((c : Thread nD τ).loc main_arg2))) (Cert.Spec.rows64 (F := Ideal) (Cert.Spec.layer2 (F := Ideal) (Cert.Spec.layer1 (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg2)) (m ((c : Thread nD τ).loc main_arg3)) (m ((c : Thread nD τ).loc main_arg6)) (m ((c : Thread nD τ).loc main_arg7))) (m ((c : Thread nD τ).loc main_arg3))) (m ((c : Thread nD τ).loc main_arg1))
        (extractStridedSlice Cert.ReferenceIdeal.S64x1 ![0, 0] (m ((c : Thread nD τ).loc main_arg8)) Cert.ReferenceIdeal.Gen.slices_S131x1_S64x1_0_0)
        (extractStridedSlice Cert.ReferenceIdeal.S64x1 ![64, 0] (m ((c : Thread nD τ).loc main_arg8)) Cert.ReferenceIdeal.Gen.slices_S131x1_S64x1_64_0)
        (extractStridedSlice Cert.ReferenceIdeal.S3x1 ![128, 0] (m ((c : Thread nD τ).loc main_arg8)) Cert.ReferenceIdeal.Gen.slices_S131x1_S3x1_128_0)
        (broadcastInDim Cert.ReferenceIdeal.S1x1 ![1] Cert.ReferenceIdeal.Gen.bcast_S1_S1x1_1 (m ((c : Thread nD τ).loc main_arg9)))) :=
  (W13_arr m ρ c 7).trans ((h4 (V12 m ρ) c).trans (congrArg logistic
    (congr7 (Cert.Spec.edgeLogits (F := Ideal)) (w12_v50 m ρ c h0 h1 h2 h3) (w12_v57 m ρ c h0 h1 h2 h3) (w12_arg1 m ρ c)
      (w12_v41 m ρ c) (w12_v42 m ρ c) (w12_v43 m ρ c) (w12_v58 m ρ c))))

/-- The float word 0x3F800000 is the real number one. -/
theorem ofBits_one : Ideal.ofBits .f32 0x3F800000#32 = 1 := by
  simp [Ideal.ofBits, Ideal.ieee, -EReal.coe_mul]; norm_num

/-- The sigmoid, applied entry by entry to a column and then flattened, is 1 / (1 + exp (-z)) of the flattened column in
    the host's operations: at each edge both are `Ideal.logistic` of the same entry, and the two literal ones are 1. -/
theorem sigmoid_flat (L : FVec Ideal Cert.ReferenceIdeal.S800000x1 .f32)
    (h : Cert.ReferenceIdeal.S800000x1.ShapeCasts Cert.ReferenceIdeal.S800000) :
    shapeCast Cert.ReferenceIdeal.S800000 (logistic L) h = Cert.Spec.sigmoidE (F := Ideal) (shapeCast Cert.ReferenceIdeal.S800000 L h) := by
  funext i
  show Ideal.logistic (L (Shape.reshapeEquiv h i))
    = Ideal.div (Ideal.ofBits .f32 0x3F800000#32) (Ideal.ofBits .f32 0x3F800000#32 + Ideal.exp (-(L (Shape.reshapeEquiv h i))))
  rw [ofBits_one]
  rfl

/-- THE RESULT: the result buffer at the last boundary holds the specification's network of the launch contents. -/
theorem w14_v60 (h0 : Region0) (h1 : Region1) (h2 : Region2) (h3 : Region3) (h4 : Region4) :
    W14 m ρ c (Proc.devRef .tc main_v60)
      = Cert.Spec.gcn (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) := by
  show StableHlo.after hostOps5 (W13 m ρ c) (Proc.devRef .tc main_v60) = _
  after_results_simp
  rw [w13_v59 m ρ c h0 h1 h2 h3 h4]
  exact sigmoid_flat _ shapeCasts_S800000x1_S800000

end Cert.KernelIdeal.KValue

end
-- ==== Proof.RefRun.lean ====
/-
  The reference program's result is the network of the specification, read off its generated run: the run states
  the result as the host operations of @main composed over the argument arrays, and the specification is that same
  composition with its stages named, so the two agree by unfolding the names.
-/
import proofs.«166072_j77335181132320_2_alg».proof.Proof.Gen.ReferenceIdeal.Run
import proofs.«166072_j77335181132320_2_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 8192 in
/-- The run's composed term is the specification's network of the ten argument arrays. -/
theorem result_eq (m : (ℓ : Loc nD τ sig) → Buf (Elt F) ℓ) (c : Dev nD) :
    Cert.ReferenceIdeal.Value.res_main_v85 m c
      = Cert.Spec.gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v85
  rfl

end Cert.ReferenceIdeal.RefValue

end
-- ==== Proof.LibMatrixBroadcast.lean ====
/-
  A COLUMN, A ROW AND A SCALAR REPEATED OVER A MATRIX, READ AT ONE ENTRY.

  A broadcast that names, for each axis of its operand, the axis of the result it goes to, reads the operand at
  the result's coordinate on a shared axis and at 0 on an axis where the operand has extent one. Three cases,
  general in the extents and in the element type:

    a column [a, 1] over [a, b] (axes to themselves):   entry (p, q) is the column at (p, 0);
    a row    [1, b] over [a, b] (axes to themselves):   entry (p, q) is the row at (0, q);
    a scalar over any shape:                            every entry is the scalar.

  The first is how a per-row scale multiplies every entry of its row, the second how a bias row is added to every
  row, the third a constant array.
-/
import Idealize.ShloMosaic.Lib.ValueIdx
import Idealize.ShloMosaic.Lib.Pipeline.Value

noncomputable section

namespace Cert.LibMatrixBroadcast

open Idealize.ShloMosaic Idealize.ShloMosaic.ValueIdx

/-- A column [a, 1] broadcast to [a, b], each axis to itself, reads at (p, q) the column at (p, 0): the first
    axis's coordinate p is kept (and if a = 1 then p = 0 anyway); the second axis of the column has extent one,
    so its coordinate is 0. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- A row [1, b] broadcast to [a, b], each axis to itself, reads at (p, q) the row at (0, q): the first axis of
    the row has extent one, so its coordinate is 0; the second axis's coordinate q is kept (and if b = 1 then
    q = 0 anyway). -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A scalar broadcast to any shape reads the scalar at every entry: the scalar has no axis, so it has a single
    index and nothing to compare. -/
theorem broadcastInDim_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Cert.LibMatrixBroadcast

end
-- ==== Proof.ScaleRows.lean ====
/-
  ROW SCALING, BLOCK BY BLOCK, IS ROW SCALING OF THE WHOLE ARRAY.

  Two regions of the kernel multiply every row n of a node-feature matrix x [50000, d] (d = 128 in the first,
  d = 64 in the second) by the scalar c(n, 0) of a column c [50000, 1]:

      out(n, q) = x(n, q) · c(n, 0).

  A region walks a grid of 5 points. Point t holds the rows 10000·t … 10000·t + 9999: its block of x is those rows
  with all d columns, its block of c the same rows of the column, and it writes back the same rows of the output.
  Inside the block the body repeats the column's entry (p, 0) along row p and multiplies entry by entry, so the
  block's entry (p, q) is x(10000·t + p, q) · c(10000·t + p, 0). It depends on row 10000·t + p of x and of c and on
  nothing else, and it is entry (10000·t + p, q) of the whole-array product of x with c repeated along the rows,
  which is what the specification (`Cert.Spec.scaleRows128`, `Cert.Spec.scaleRows64`) says. No law of arithmetic
  is used: the two sides are the same product of the same two numbers, and the proof is the bookkeeping of where
  an entry of a block sits in the array.

  Row r lies in the block of point r / 10000, so the five blocks cover the output array, and the array after the
  region is the specification's array at every entry.

  The steps, for each of the two regions:
    1. the body's stored value at the block entry (p, q);
    2. the specification at the array entry (r, q);
    3. where the entries of point t's blocks sit in the arrays: block row p is array row 10000·t + p;
    4. what point t writes back is block t of the specification's array;
    5. every array entry is in some point's block;
    6. the array after the region.
-/
import proofs.«166072_j77335181132320_2_alg».proof.Proof.Gen.KernelIdeal.Frame
import proofs.«166072_j77335181132320_2_alg».proof.Proof.Spec
import proofs.«166072_j77335181132320_2_alg».proof.Proof.LibColumn
import proofs.«166072_j77335181132320_2_alg».proof.Proof.LibMatrixBroadcast
import Idealize.ShloMosaic.Lib.Pipeline.Value
import Idealize.ShloMosaic.Lib.ValueIdx

noncomputable section

namespace Cert.KernelIdeal.ScaleRows

open Cert.KernelIdeal Cert.KernelIdeal.Gen Idealize.ShloMosaic Idealize.ShloMosaic.TcCoe Idealize.ShloMosaic.ValueIdx
open Idealize.ShloMosaic.Pipeline (Dat)

-- The buffer contents when a region is entered, on every core: anything. Each region is read at its own.
variable (V : (c : Dev nD) → (b : Ref sig .tc) → Buf (Elt Ideal) ((c : Thread nD τ).loc b))

/-- The offsets (0, 0) of a load or a store of a whole block, as the constant function 0. -/
theorem hz : (![0, 0] : Fin 2 → Nat) = fun _ => 0 := funext fun a => by fin_cases a <;> rfl

/-! ## The region over 128 features: x is [50000, 128], a block is [10000, 128] -/

/-- STEP 1. The body's stored value at the block entry (p, q). The body casts the column block to its own shape
    (nothing moves), repeats it along the rows — entry (p, q) of the repeated column is the column's entry
    (p, 0), whatever q — and multiplies the two blocks entry by entry. So the value at (p, q) is the x block's
    entry (p, q) times the column block's entry (p, 0). -/
theorem pay0_apply (x0 : Vec Ideal S10000x128 .f32) (x1 : Vec Ideal S10000x1 .f32) (p : Fin 10000) (q : Fin 128) :
    k0_pay1 x0 x1 (ix2 p q) = x0 (ix2 p q) * x1 (ix2 p (0 : Fin 1)) := by
  unfold k0_pay1
  rw [shapeCast_self]
  exact congrArg (x0 (ix2 p q) * ·) (Cert.LibColumn.broadcastTo_a1_ab_apply x1 _ p q)

/-- STEP 2. The specification at the array entry (r, q): the column c repeated along the rows has c(r, 0) at
    (r, q), and the product is entry by entry, so the entry is x(r, q) · c(r, 0). -/
theorem spec128_apply (x : FVec Ideal S50000x128 .f32) (cl : FVec Ideal S50000x1 .f32) (r : Fin 50000) (q : Fin 128) :
    Cert.Spec.scaleRows128 x cl (ix2 r q) = x (ix2 r q) * cl (ix2 r (0 : Fin 1)) := by
  unfold Cert.Spec.scaleRows128
  exact congrArg (x (ix2 r q) * ·) (Cert.LibMatrixBroadcast.broadcastInDim_a1_ab_apply cl _ r q)

/-- The three windows' block indices at point t, read off the printed index maps over the 5 points of the grid:
    every window's block index is (t, 0) — the t-th block of rows, the only block of columns. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The array row that row p of point t's block is: 10000·t + p. It is below 50000 because t < 5 and p < 10000. -/
def row0 (t : Fin cfg0.N) (p : Fin 10000) : Fin 50000 :=
  ⟨10000 * t.val + p.val, by have ht : t.val < 5 := t.isLt; have := p.isLt; omega⟩

/-- STEP 3, the x window. A block's entry sits in the array, on each axis, at the block index times the block's
    extent plus the entry's own coordinate. With block index (t, 0) and extents (10000, 128) the block entry
    (p, q) is the array entry (10000·t + p, q). -/
theorem blk0_0_read (c : Dev nD) (t : Fin cfg0.N) (p : Fin 10000) (q : Fin 128) :
    iblk0 V c 0 t (ix2 p q) = V c main_arg0 (ix2 (row0 t p) q) := by
  obtain ⟨e0, e1, -⟩ := idx_facts0 t
  show V c main_arg0 (((cfg0.win 0).blk t).view.emb (ix2 p q)) = _
  refine congrArg (V c main_arg0) (funext fun a => Fin.ext ?_)
  match a with
  | ⟨0, _⟩ => show win0_0.index t (0 : Fin 2) * 10000 + 1 * p.val = 10000 * t.val + p.val; omega
  | ⟨1, _⟩ => show win0_0.index t (1 : Fin 2) * 128 + 1 * q.val = q.val; omega

/-- STEP 3, the column window: extents (10000, 1), so the block entry (p, 0) is the array entry (10000·t + p, 0). -/
theorem blk0_1_read (c : Dev nD) (t : Fin cfg0.N) (p : Fin 10000) :
    iblk0 V c 1 t (ix2 p (0 : Fin 1)) = V c main_v11 (ix2 (row0 t p) (0 : Fin 1)) := by
  obtain ⟨-, -, e2, e3, -⟩ := idx_facts0 t
  show V c main_v11 (((cfg0.win 1).blk t).view.emb (ix2 p (0 : Fin 1))) = _
  refine congrArg (V c main_v11) (funext fun a => Fin.ext ?_)
  match a with
  | ⟨0, _⟩ => show win0_1.index t (0 : Fin 2) * 10000 + 1 * p.val = 10000 * t.val + p.val; omega
  | ⟨1, _⟩ => show win0_1.index t (1 : Fin 2) * 1 + 1 * 0 = 0; omega

/-- STEP 3, the output window, for any contents G of the output array: block t of G has G(10000·t + p, q) at
    (p, q). -/
theorem blk0_2_read (G : FVec Ideal S50000x128 .f32) (t : Fin cfg0.N) (p : Fin 10000) (q : Fin 128) :
    ((cfg0.win 2).blk t).view.read (Elt Ideal) G (ix2 p q) = G (ix2 (row0 t p) q) := by
  obtain ⟨-, -, -, -, e4, e5⟩ := idx_facts0 t
  show G (((cfg0.win 2).blk t).view.emb (ix2 p q)) = _
  refine congrArg G (funext fun a => Fin.ext ?_)
  match a with
  | ⟨0, _⟩ => show win0_2.index t (0 : Fin 2) * 10000 + 1 * p.val = 10000 * t.val + p.val; omega
  | ⟨1, _⟩ => show win0_2.index t (1 : Fin 2) * 128 + 1 * q.val = q.val; omega

/-- STEP 4. What point t writes back is block t of the specification's array. The body loads its two blocks
    whole and stores one whole block, so the output buffer after the body is the stored value. At the block
    entry (p, q) that value is x(10000·t + p, q) · c(10000·t + p, 0) (steps 1 and 3), and block t of the
    specification's array has the same product there (steps 3 and 2). -/
theorem flushed0_eq (c : Dev nD) (t : Fin cfg0.N) :
    (dat0 V c).flushed 2 t
      = ((cfg0.win 2).blk t).view.read (Elt Ideal) (Cert.Spec.scaleRows128 (F := Ideal) (V c main_arg0) (V c main_v11)) := by
  show (cfg0.win 2).cut (grid0.coords t) ((dat0 V c).after 2 t) = _
  rw [after0_2]
  unfold out0_2
  rw [View.canon_unit_zero hz]
  simp only [View.ld_unit_zero (S := S10000x128) hz, View.ld_unit_zero (S := S10000x1) hz]
  funext j
  obtain ⟨p, q, rfl⟩ : ∃ (p : Fin 10000) (q : Fin 128), j = ix2 p q := ⟨j 0, j 1, eq_ix2 j⟩
  show k0_pay1 (iblk0 V c 0 t) (iblk0 V c 1 t) (ix2 p q) = _
  refine (pay0_apply (iblk0 V c 0 t) (iblk0 V c 1 t) p q).trans ?_
  refine Eq.trans ?_ (blk0_2_read (Cert.Spec.scaleRows128 (F := Ideal) (V c main_arg0) (V c main_v11)) t p q).symm
  refine Eq.trans ?_ (spec128_apply (V c main_arg0) (V c main_v11) (row0 t p) q).symm
  rw [blk0_0_read V c t p q, blk0_1_read V c t p]

/-- An entry of the output array is in point t's block exactly when each coordinate is in the block's range on
    its axis: from block index times extent, for the extent. -/
theorem mem_blk0 (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v15).slice (win0_2.rect t)).set ↔ _
  rw [View.set_slice_whole, Rect.mem_set_unit]
  exact Iff.rfl

/-- STEP 5. Every entry (r, q) of the output array is in the block of point r / 10000: that point exists because
    r < 50000, its rows are 10000·(r / 10000) … 10000·(r / 10000) + 9999, which hold r, and its columns are all 128.
    Every point writes its block back. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 10000 < 5 := by omega
  refine ⟨⟨(i 0).val / 10000, ht⟩, flush0_2 _, ?_⟩
  obtain ⟨-, -, -, -, e4, e5⟩ := idx_facts0 ⟨(i 0).val / 10000, ht⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    rw [e5]
    omega

/-- STEP 6. The output array after the region is the specification's array: every point writes back its block
    of that one array (step 4) and the blocks cover the output (step 5), so whatever order the points write in,
    each entry ends at the specification's value. -/
theorem final0 (c : Dev nD) :
    (dat0 (F := Ideal) V c).arrAt 2 cfg0.N = Cert.Spec.scaleRows128 (F := Ideal) (V c main_arg0) (V c main_v11) :=
  (dat0 V c).arrAt_eq_of_cover 2 _ (fun t _ => flushed0_eq V c t) cover0

/-! ## The region over 64 features: x is [50000, 64], a block is [10000, 64] -/

/-- STEP 1. The body's stored value at the block entry (p, q). The body casts each of its two blocks to its own
    shape (nothing moves), repeats the column block along the rows — entry (p, q) of the repeated column is the
    column's entry (p, 0), whatever q — and multiplies the two blocks entry by entry. So the value at (p, q) is
    the x block's entry (p, q) times the column block's entry (p, 0). -/
theorem pay2_apply (x0 : Vec Ideal S10000x64 .f32) (x1 : Vec Ideal S10000x1 .f32) (p : Fin 10000) (q : Fin 64) :
    k2_pay1 x0 x1 (ix2 p q) = x0 (ix2 p q) * x1 (ix2 p (0 : Fin 1)) := by
  unfold k2_pay1
  rw [shapeCast_self, shapeCast_self]
  exact congrArg (x0 (ix2 p q) * ·) (Cert.LibColumn.broadcastTo_a1_ab_apply x1 _ p q)

/-- STEP 2. The specification at the array entry (r, q): the column c repeated along the rows has c(r, 0) at
    (r, q), and the product is entry by entry, so the entry is x(r, q) · c(r, 0). -/
theorem spec64_apply (x : FVec Ideal S50000x64 .f32) (cl : FVec Ideal S50000x1 .f32) (r : Fin 50000) (q : Fin 64) :
    Cert.Spec.scaleRows64 x cl (ix2 r q) = x (ix2 r q) * cl (ix2 r (0 : Fin 1)) := by
  unfold Cert.Spec.scaleRows64
  exact congrArg (x (ix2 r q) * ·) (Cert.LibMatrixBroadcast.broadcastInDim_a1_ab_apply cl _ r q)

/-- The three windows' block indices at point t, read off the printed index maps over the 5 points of the grid:
    every window's block index is (t, 0) — the t-th block of rows, the only block of columns. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The array row that row p of point t's block is: 10000·t + p. It is below 50000 because t < 5 and p < 10000. -/
def row2 (t : Fin cfg2.N) (p : Fin 10000) : Fin 50000 :=
  ⟨10000 * t.val + p.val, by have ht : t.val < 5 := t.isLt; have := p.isLt; omega⟩

/-- STEP 3, the x window. A block's entry sits in the array, on each axis, at the block index times the block's
    extent plus the entry's own coordinate. With block index (t, 0) and extents (10000, 64) the block entry
    (p, q) is the array entry (10000·t + p, q). -/
theorem blk2_0_read (c : Dev nD) (t : Fin cfg2.N) (p : Fin 10000) (q : Fin 64) :
    iblk2 V c 0 t (ix2 p q) = V c main_v27 (ix2 (row2 t p) q) := by
  obtain ⟨e0, e1, -⟩ := idx_facts2 t
  show V c main_v27 (((cfg2.win 0).blk t).view.emb (ix2 p q)) = _
  refine congrArg (V c main_v27) (funext fun a => Fin.ext ?_)
  match a with
  | ⟨0, _⟩ => show win2_0.index t (0 : Fin 2) * 10000 + 1 * p.val = 10000 * t.val + p.val; omega
  | ⟨1, _⟩ => show win2_0.index t (1 : Fin 2) * 64 + 1 * q.val = q.val; omega

/-- STEP 3, the column window: extents (10000, 1), so the block entry (p, 0) is the array entry (10000·t + p, 0). -/
theorem blk2_1_read (c : Dev nD) (t : Fin cfg2.N) (p : Fin 10000) :
    iblk2 V c 1 t (ix2 p (0 : Fin 1)) = V c main_v11 (ix2 (row2 t p) (0 : Fin 1)) := by
  obtain ⟨-, -, e2, e3, -⟩ := idx_facts2 t
  show V c main_v11 (((cfg2.win 1).blk t).view.emb (ix2 p (0 : Fin 1))) = _
  refine congrArg (V c main_v11) (funext fun a => Fin.ext ?_)
  match a with
  | ⟨0, _⟩ => show win2_1.index t (0 : Fin 2) * 10000 + 1 * p.val = 10000 * t.val + p.val; omega
  | ⟨1, _⟩ => show win2_1.index t (1 : Fin 2) * 1 + 1 * 0 = 0; omega

/-- STEP 3, the output window, for any contents G of the output array: block t of G has G(10000·t + p, q) at
    (p, q). -/
theorem blk2_2_read (G : FVec Ideal S50000x64 .f32) (t : Fin cfg2.N) (p : Fin 10000) (q : Fin 64) :
    ((cfg2.win 2).blk t).view.read (Elt Ideal) G (ix2 p q) = G (ix2 (row2 t p) q) := by
  obtain ⟨-, -, -, -, e4, e5⟩ := idx_facts2 t
  show G (((cfg2.win 2).blk t).view.emb (ix2 p q)) = _
  refine congrArg G (funext fun a => Fin.ext ?_)
  match a with
  | ⟨0, _⟩ => show win2_2.index t (0 : Fin 2) * 10000 + 1 * p.val = 10000 * t.val + p.val; omega
  | ⟨1, _⟩ => show win2_2.index t (1 : Fin 2) * 64 + 1 * q.val = q.val; omega

/-- STEP 4. What point t writes back is block t of the specification's array. The body loads its two blocks
    whole and stores one whole block, so the output buffer after the body is the stored value. At the block
    entry (p, q) that value is x(10000·t + p, q) · c(10000·t + p, 0) (steps 1 and 3), and block t of the
    specification's array has the same product there (steps 3 and 2). -/
theorem flushed2_eq (c : Dev nD) (t : Fin cfg2.N) :
    (dat2 V c).flushed 2 t
      = ((cfg2.win 2).blk t).view.read (Elt Ideal) (Cert.Spec.scaleRows64 (F := Ideal) (V c main_v27) (V c main_v11)) := by
  show (cfg2.win 2).cut (grid2.coords t) ((dat2 V c).after 2 t) = _
  rw [after2_2]
  unfold out2_2
  rw [View.canon_unit_zero hz]
  simp only [View.ld_unit_zero (S := S10000x64) hz, View.ld_unit_zero (S := S10000x1) hz]
  funext j
  obtain ⟨p, q, rfl⟩ : ∃ (p : Fin 10000) (q : Fin 64), j = ix2 p q := ⟨j 0, j 1, eq_ix2 j⟩
  show k2_pay1 (iblk2 V c 0 t) (iblk2 V c 1 t) (ix2 p q) = _
  refine (pay2_apply (iblk2 V c 0 t) (iblk2 V c 1 t) p q).trans ?_
  refine Eq.trans ?_ (blk2_2_read (Cert.Spec.scaleRows64 (F := Ideal) (V c main_v27) (V c main_v11)) t p q).symm
  refine Eq.trans ?_ (spec64_apply (V c main_v27) (V c main_v11) (row2 t p) q).symm
  rw [blk2_0_read V c t p q, blk2_1_read V c t p]

/-- An entry of the output array is in point t's block exactly when each coordinate is in the block's range on
    its axis: from block index times extent, for the extent. -/
theorem mem_blk2 (t : Fin cfg2.N) (i : S50000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v28).slice (win2_2.rect t)).set ↔ _
  rw [View.set_slice_whole, Rect.mem_set_unit]
  exact Iff.rfl

/-- STEP 5. Every entry (r, q) of the output array is in the block of point r / 10000: that point exists because
    r < 50000, its rows are 10000·(r / 10000) … 10000·(r / 10000) + 9999, which hold r, and its columns are all 64.
    Every point writes its block back. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have ht : (i 0).val / 10000 < 5 := by omega
  refine ⟨⟨(i 0).val / 10000, ht⟩, flush2_2 _, ?_⟩
  obtain ⟨-, -, -, -, e4, e5⟩ := idx_facts2 ⟨(i 0).val / 10000, ht⟩
  rw [mem_blk2]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    rw [e5]
    omega

/-- STEP 6. The output array after the region is the specification's array: every point writes back its block
    of that one array (step 4) and the blocks cover the output (step 5), so whatever order the points write in,
    each entry ends at the specification's value. -/
theorem final2 (c : Dev nD) :
    (dat2 (F := Ideal) V c).arrAt 2 cfg2.N = Cert.Spec.scaleRows64 (F := Ideal) (V c main_v27) (V c main_v11) :=
  (dat2 V c).arrAt_eq_of_cover 2 _ (fun t _ => flushed2_eq V c t) cover2

end Cert.KernelIdeal.ScaleRows

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Dense.lean ====
/-
  THE TWO DENSE STAGES OF THE NETWORK, FROM ROW BLOCKS TO WHOLE ARRAYS.

  A dense stage takes node features agg [50000, K], a per-node scale c [50000, 1], weights W [K, 64] and a bias
  row b [1, 64], and produces

      out (r, q) = (Σ_{k < K} (agg (r, k) · c (r, 0)) · W (k, q)) + b (0, q),

  followed in the first layer (K = 128) by max (·, 0); the second layer (K = 64) has no maximum.

  The kernel works on five blocks of 10000 rows. Grid point t holds rows 10000·t … 10000·t + 9999 of agg and of
  c, and all of W and of b. Entry (p, q) of the block it stores depends on row p of its agg block, on entry p of
  its c block, on column q of W and on b (0, q), and on nothing else: these are row 10000·t + p of the arrays.
  The block is therefore the restriction to those rows of ONE function of the whole arrays, the one the
  specification states with the host's operations, and since every row r lies in the block of point r / 10000,
  the five blocks written back make up that function on the whole array.

  Why the two sides agree entry by entry. On the extended reals rounding to bf16 changes nothing, and a product
  into the zero accumulator is the plain sum over the contracted axis; the host's dot_general is the same sum
  over the same axis. Scaling a row is in both a broadcast of the column c along the row, and adding the bias a
  broadcast of the row b along the column. So both sides are the sum over k, in the same order, of the same
  products, plus the same bias entry (and the maximum with the same zero): no law of arithmetic is used, only
  the reading of each operation at an entry, and no finiteness is needed.
-/
import proofs.«166072_j77335181132320_2_alg».proof.Proof.Gen.KernelIdeal.Frame
import proofs.«166072_j77335181132320_2_alg».proof.Proof.Spec
import proofs.«166072_j77335181132320_2_alg».proof.Proof.LibPlainDot
import proofs.«166072_j77335181132320_2_alg».proof.Proof.LibMatrixBroadcast
import proofs.«166072_j77335181132320_2_alg».proof.Proof.LibColumn
import Idealize.ShloMosaic.Lib.Pipeline.Value
import Idealize.ShloMosaic.Lib.ValueIdx
import Idealize.ShloMosaic.Lib.ValueLayout

noncomputable section

open scoped BigOperators

namespace Cert.KernelIdeal.Dense

open Idealize.ShloMosaic Idealize.ShloMosaic.TcCoe Idealize.ShloMosaic.ValueIdx Idealize.SL.Sem
open Idealize.ShloMosaic.Pipeline (Dat)
open Cert.KernelIdeal Cert.KernelIdeal.Gen

/-! ## The second layer's stage (K = 64, no maximum), at one entry -/

/-- What a grid point stores, at entry (p, q) of its block, from the four blocks it loaded: the casts of a shape
    to itself are identities, the column x1 is repeated along each row, rounding to bf16 is the identity, the
    product into the zero accumulator is the sum over k, and the bias row is repeated along each column. -/
theorem block_dense2_apply (x0 : Vec Ideal S10000x64 .f32) (x1 : Vec Ideal S10000x1 .f32) (x2 : Vec Ideal S64x64 .f32)
    (x3 : Vec Ideal S1x64 .f32) (p : Fin 10000) (q : Fin 64) :
    k3_pay1 (F := Ideal) x0 x1 x2 x3 (ix2 p q)
      = (∑ k : Fin 64, (x0 (ix2 p k) * x1 (ix2 p (0 : Fin 1))) * x2 (ix2 k q)) + x3 (ix2 (0 : Fin 1) q) := by
  unfold k3_pay1
  refine (addf_apply _ _ _).trans (congrArg₂ (fun a b : EReal => a + b) ?_ ?_)
  · refine (Cert.LibPlainDot.matmul_zero_apply (M := 10000) (K := 64) (N := 64) none _ _ p q).trans ?_
    refine Finset.sum_congr rfl fun k _ => congrArg (fun a : EReal => a * x2 (ix2 k q)) ?_
    show shapeCast S10000x64 x0 shapeCasts_S10000x64_S10000x64 (ix2 p k)
        * broadcastTo S10000x64 (shapeCast S10000x1 x1 shapeCasts_S10000x1_S10000x1) broadcasts_S10000x1_S10000x64 (ix2 p k) = _
    rw [shapeCast_self, shapeCast_self]
    exact congrArg (fun a : EReal => x0 (ix2 p k) * a) (Cert.LibColumn.broadcastTo_a1_ab_apply x1 _ p k)
  · rw [shapeCast_self]
    exact broadcastTo_1b_ab_apply x3 _ p q

/-- The specification's stage at entry (r, q) of the whole array: the host's dot_general is the sum over k, the
    scale is the column repeated along each row, the bias the row repeated along each column. -/
theorem dense2_apply (agg : FVec Ideal Cert.ReferenceIdeal.S50000x64 .f32) (cc : FVec Ideal Cert.ReferenceIdeal.S50000x1 .f32)
    (W : FVec Ideal Cert.ReferenceIdeal.S64x64 .f32) (b : FVec Ideal Cert.ReferenceIdeal.S1x64 .f32) (r : Fin 50000) (q : Fin 64) :
    Cert.Spec.dense2 agg cc W b (ix2 r q)
      = (∑ k : Fin 64, (agg (ix2 r k) * cc (ix2 r (0 : Fin 1))) * W (ix2 k q)) + b (ix2 (0 : Fin 1) q) := by
  unfold Cert.Spec.dense2 Cert.Spec.scaleRows64
  refine (addf_apply _ _ _).trans (congrArg₂ (fun a b : EReal => a + b) ?_ ?_)
  · refine (Cert.LibPlainDot.dotGeneral_apply (M := 50000) (K := 64) (N := 64) none .single _ _ r q).trans ?_
    refine Finset.sum_congr rfl fun k _ => congrArg (fun a : EReal => a * W (ix2 k q)) ?_
    refine (mulf_apply _ _ _).trans ?_
    exact congrArg (fun a : EReal => agg (ix2 r k) * a) (Cert.LibMatrixBroadcast.broadcastInDim_a1_ab_apply cc _ r k)
  · exact Cert.LibMatrixBroadcast.broadcastInDim_1b_ab_apply b _ r q

/-- THE BLOCK IS THE STAGE RESTRICTED TO ITS ROWS. Let x0, x1 be rows t·10000 … t·10000 + 9999 of A and of C,
    and x2, x3 all of W and of B. Then the stored block at y is the stage of the whole arrays at the entry i
    with row t·10000 + (row of y) and the column of y: both are the same sum of the same products. -/
theorem dense2_block_entry (x0 : Vec Ideal S10000x64 .f32) (x1 : Vec Ideal S10000x1 .f32) (x2 : Vec Ideal S64x64 .f32)
    (x3 : Vec Ideal S1x64 .f32)
    (A : FVec Ideal Cert.ReferenceIdeal.S50000x64 .f32) (C : FVec Ideal Cert.ReferenceIdeal.S50000x1 .f32)
    (W : FVec Ideal Cert.ReferenceIdeal.S64x64 .f32) (B : FVec Ideal Cert.ReferenceIdeal.S1x64 .f32)
    (t : ℕ) (y : S10000x64.Idx) (i : S50000x64.Idx)
    (hi0 : (i 0).val = t * 10000 + (y 0).val) (hi1 : (i 1).val = (y 1).val)
    (h0 : ∀ (p : Fin 10000) (k : Fin 64) (r : Fin 50000), r.val = t * 10000 + p.val → x0 (ix2 p k) = A (ix2 r k))
    (h1 : ∀ (p : Fin 10000) (r : Fin 50000), r.val = t * 10000 + p.val → x1 (ix2 p (0 : Fin 1)) = C (ix2 r (0 : Fin 1)))
    (h2 : x2 = W) (h3 : x3 = B) :
    k3_pay1 (F := Ideal) x0 x1 x2 x3 y = Cert.Spec.dense2 A C W B i := by
  obtain ⟨p, q, rfl⟩ : ∃ (p : Fin 10000) (q : Fin 64), y = ix2 p q := ⟨y 0, y 1, eq_ix2 y⟩
  obtain ⟨r, q', rfl⟩ : ∃ (r : Fin 50000) (q' : Fin 64), i = ix2 r q' := ⟨i 0, i 1, eq_ix2 i⟩
  have hr : r.val = t * 10000 + p.val := hi0
  obtain rfl : q' = q := Fin.ext hi1
  rw [block_dense2_apply, dense2_apply, h2, h3]
  refine congrArg (fun s : EReal => s + B (ix2 (0 : Fin 1) q')) (Finset.sum_congr rfl fun k _ => ?_)
  rw [h0 p k r hr, h1 p r hr]

/-! ## The first layer's stage (K = 128, then the maximum with zero), at one entry -/

/-- What a grid point stores at entry (p, q) of its block: as in the second layer with 128 terms, then the
    maximum with the zero the kernel broadcasts. -/
theorem block_dense1_apply (x0 : Vec Ideal S10000x128 .f32) (x1 : Vec Ideal S10000x1 .f32) (x2 : Vec Ideal S128x64 .f32)
    (x3 : Vec Ideal S1x64 .f32) (p : Fin 10000) (q : Fin 64) :
    k1_pay1 (F := Ideal) x0 x1 x2 x3 (ix2 p q)
      = max ((∑ k : Fin 128, (x0 (ix2 p k) * x1 (ix2 p (0 : Fin 1))) * x2 (ix2 k q)) + x3 (ix2 (0 : Fin 1) q))
          (Ideal.ofBits .f32 0x00000000#32) := by
  unfold k1_pay1
  refine (maximumf_apply _ _ _).trans (congrArg₂ (fun a b : EReal => max a b) ?_ rfl)
  refine (addf_apply _ _ _).trans (congrArg₂ (fun a b : EReal => a + b) ?_ ?_)
  · refine (Cert.LibPlainDot.matmul_zero_apply (M := 10000) (K := 128) (N := 64) none _ _ p q).trans ?_
    refine Finset.sum_congr rfl fun k _ => congrArg (fun a : EReal => a * x2 (ix2 k q)) ?_
    show shapeCast S10000x128 x0 shapeCasts_S10000x128_S10000x128 (ix2 p k)
        * broadcastTo S10000x128 (shapeCast S10000x1 x1 shapeCasts_S10000x1_S10000x1) broadcasts_S10000x1_S10000x128 (ix2 p k) = _
    rw [shapeCast_self, shapeCast_self]
    exact congrArg (fun a : EReal => x0 (ix2 p k) * a) (Cert.LibColumn.broadcastTo_a1_ab_apply x1 _ p k)
  · rw [shapeCast_self]
    exact broadcastTo_1b_ab_apply x3 _ p q

/-- The specification's first-layer stage at entry (r, q): the sum over the 128 features plus the bias, then
    the maximum with the zero the host broadcasts from a scalar. -/
theorem relu_dense1_apply (agg : FVec Ideal Cert.ReferenceIdeal.S50000x128 .f32) (cc : FVec Ideal Cert.ReferenceIdeal.S50000x1 .f32)
    (W : FVec Ideal Cert.ReferenceIdeal.S128x64 .f32) (b : FVec Ideal Cert.ReferenceIdeal.S1x64 .f32) (r : Fin 50000) (q : Fin 64) :
    Cert.Spec.relu64 (Cert.Spec.dense1 agg cc W b) (ix2 r q)
      = max ((∑ k : Fin 128, (agg (ix2 r k) * cc (ix2 r (0 : Fin 1))) * W (ix2 k q)) + b (ix2 (0 : Fin 1) q))
          (Ideal.ofBits .f32 0x00000000#32) := by
  unfold Cert.Spec.relu64 Cert.Spec.dense1 Cert.Spec.scaleRows128
  refine (maximumf_apply _ _ _).trans (congrArg₂ (fun a b : EReal => max a b) ?_
    (Cert.LibMatrixBroadcast.broadcastInDim_scalar_apply _ _ (ix2 r q)))
  refine (addf_apply _ _ _).trans (congrArg₂ (fun a b : EReal => a + b) ?_ ?_)
  · refine (Cert.LibPlainDot.dotGeneral_apply (M := 50000) (K := 128) (N := 64) none .single _ _ r q).trans ?_
    refine Finset.sum_congr rfl fun k _ => congrArg (fun a : EReal => a * W (ix2 k q)) ?_
    refine (mulf_apply _ _ _).trans ?_
    exact congrArg (fun a : EReal => agg (ix2 r k) * a) (Cert.LibMatrixBroadcast.broadcastInDim_a1_ab_apply cc _ r k)
  · exact Cert.LibMatrixBroadcast.broadcastInDim_1b_ab_apply b _ r q

/-- THE BLOCK IS THE STAGE RESTRICTED TO ITS ROWS, for the first layer: with x0, x1 rows t·10000 … of A and C
    and x2, x3 all of W and B, the stored block at y is the stage of the whole arrays at row t·10000 + (row of y)
    and the column of y. -/
theorem dense1_block_entry (x0 : Vec Ideal S10000x128 .f32) (x1 : Vec Ideal S10000x1 .f32) (x2 : Vec Ideal S128x64 .f32)
    (x3 : Vec Ideal S1x64 .f32)
    (A : FVec Ideal Cert.ReferenceIdeal.S50000x128 .f32) (C : FVec Ideal Cert.ReferenceIdeal.S50000x1 .f32)
    (W : FVec Ideal Cert.ReferenceIdeal.S128x64 .f32) (B : FVec Ideal Cert.ReferenceIdeal.S1x64 .f32)
    (t : ℕ) (y : S10000x64.Idx) (i : S50000x64.Idx)
    (hi0 : (i 0).val = t * 10000 + (y 0).val) (hi1 : (i 1).val = (y 1).val)
    (h0 : ∀ (p : Fin 10000) (k : Fin 128) (r : Fin 50000), r.val = t * 10000 + p.val → x0 (ix2 p k) = A (ix2 r k))
    (h1 : ∀ (p : Fin 10000) (r : Fin 50000), r.val = t * 10000 + p.val → x1 (ix2 p (0 : Fin 1)) = C (ix2 r (0 : Fin 1)))
    (h2 : x2 = W) (h3 : x3 = B) :
    k1_pay1 (F := Ideal) x0 x1 x2 x3 y = Cert.Spec.relu64 (Cert.Spec.dense1 A C W B) i := by
  obtain ⟨p, q, rfl⟩ : ∃ (p : Fin 10000) (q : Fin 64), y = ix2 p q := ⟨y 0, y 1, eq_ix2 y⟩
  obtain ⟨r, q', rfl⟩ : ∃ (r : Fin 50000) (q' : Fin 64), i = ix2 r q' := ⟨i 0, i 1, eq_ix2 i⟩
  have hr : r.val = t * 10000 + p.val := hi0
  obtain rfl : q' = q := Fin.ext hi1
  rw [block_dense1_apply, relu_dense1_apply, h2, h3]
  refine congrArg (fun s : EReal => max (s + B (ix2 (0 : Fin 1) q')) (Ideal.ofBits .f32 0x00000000#32))
    (Finset.sum_congr rfl fun k _ => ?_)
  rw [h0 p k r hr, h1 p r hr]

/-! ## From the blocks to the arrays

  `V` is what the buffers hold when a region is entered; the statements are for any such contents. -/

section Regions
variable (V : (c : Dev nD) → (b : Ref sig .tc) → Buf (Elt Ideal) ((c : Thread nD τ).loc b))

/-- A load or a store of a whole staging buffer starts at offset zero on both axes. -/
theorem zero_offsets : (![0, 0] : Fin 2 → Nat) = fun _ => 0 := funext fun a => by fin_cases a <;> rfl

/-! ### The second layer: blocks of main_v38, main_v14, all of main_arg6 and main_v39, into main_v40 -/

/-- Which block each window holds at grid point t: block (t, 0) of the row-blocked arrays (features, scale,
    result), block (0, 0) — the whole array — of the weights and of the bias. Five points, decided. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (p, k) of the feature block at point t is entry (t·10000 + p, k) of main_v38: an entry of a block sits
    in the array, on each axis, at block index × block size + its coordinate. -/
theorem features_block3 (c : Dev nD) (t : Fin cfg3.N) (p : Fin 10000) (k : Fin 64) (r : Fin 50000)
    (hr : r.val = t.val * 10000 + p.val) :
    (iblk3 V c 0 t : Vec Ideal S10000x64 .f32) (ix2 p k) = (V c main_v38 : S50000x64.Idx → EReal) (ix2 r k) := by
  obtain ⟨e0, e1, -⟩ := block_index3 t
  unfold iblk3
  rw [View.read_apply]
  show V c main_v38 (((cfg3.win 0).blk t).view.emb (ix2 p k)) = V c main_v38 (ix2 r k)
  refine congrArg (V c main_v38) (funext fun a => Fin.ext ?_)
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- Entry p of the scale block at point t is entry t·10000 + p of the column main_v14. -/
theorem scale_block3 (c : Dev nD) (t : Fin cfg3.N) (p : Fin 10000) (r : Fin 50000)
    (hr : r.val = t.val * 10000 + p.val) :
    (iblk3 V c 1 t : Vec Ideal S10000x1 .f32) (ix2 p (0 : Fin 1)) = (V c main_v14 : S50000x1.Idx → EReal) (ix2 r (0 : Fin 1)) := by
  obtain ⟨-, -, e0, e1, -⟩ := block_index3 t
  unfold iblk3
  rw [View.read_apply]
  show V c main_v14 (((cfg3.win 1).blk t).view.emb (ix2 p (0 : Fin 1))) = V c main_v14 (ix2 r (0 : Fin 1))
  refine congrArg (V c main_v14) (funext fun a => Fin.ext ?_)
  match a with
  | ⟨0, _⟩ => show win3_1.index t (0 : Fin 2) * 10000 + 1 * p.val = r.val; rw [e0, hr]; omega
  | ⟨1, _⟩ => show win3_1.index t (1 : Fin 2) * 1 + 1 * 0 = 0; rw [e1]

/-- The weights' block is, at every point, the whole of main_arg6: block (0, 0) of size the array's. -/
theorem weights_block3 (c : Dev nD) (t : Fin cfg3.N) :
    (iblk3 V c 2 t : Vec Ideal S64x64 .f32) = (V c main_arg6 : S64x64.Idx → EReal) := by
  obtain ⟨-, -, -, -, e0, e1, -⟩ := block_index3 t
  unfold iblk3
  funext y
  rw [View.read_apply]
  show V c main_arg6 (((cfg3.win 2).blk t).view.emb y) = V c main_arg6 y
  refine congrArg (V c main_arg6) (funext fun a => Fin.ext ?_)
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- The bias' block is, at every point, the whole of main_v39. -/
theorem bias_block3 (c : Dev nD) (t : Fin cfg3.N) :
    (iblk3 V c 3 t : Vec Ideal S1x64 .f32) = (V c main_v39 : S1x64.Idx → EReal) := by
  obtain ⟨-, -, -, -, -, -, e0, e1, -⟩ := block_index3 t
  unfold iblk3
  funext y
  rw [View.read_apply]
  show V c main_v39 (((cfg3.win 3).blk t).view.emb y) = V c main_v39 y
  refine congrArg (V c main_v39) (funext fun a => Fin.ext ?_)
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-- WHAT POINT t WRITES BACK is rows t·10000 … t·10000 + 9999 of the stage of the whole arrays: the staging
    buffer holds the one stored block, and each of its entries is the stage at the array entry the block's
    rectangle names. -/
theorem written_back3 (c : Dev nD) (t : Fin cfg3.N) :
    (dat3 (F := Ideal) V c).flushed 4 t
      = ((cfg3.win 4).blk t).view.read (Elt Ideal)
          (Cert.Spec.dense2 (F := Ideal) (V c main_v38) (V c main_v14) (V c main_arg6) (V c main_v39)) := by
  show (cfg3.win 4).cut (grid3.coords t) ((dat3 V c).after 4 t) = _
  rw [after3_4]
  unfold out3_4
  rw [View.canon_unit_zero zero_offsets]
  simp only [View.ld_unit_zero (S := S10000x64) zero_offsets, View.ld_unit_zero (S := S10000x1) zero_offsets,
    View.ld_unit_zero (S := S64x64) zero_offsets, View.ld_unit_zero (S := S1x64) zero_offsets]
  obtain ⟨-, -, -, -, -, -, -, -, e0, e1⟩ := block_index3 t
  funext y
  show k3_pay1 (F := Ideal) (iblk3 V c 0 t) (iblk3 V c 1 t) (iblk3 V c 2 t) (iblk3 V c 3 t) y
      = Cert.Spec.dense2 (F := Ideal) (V c main_v38) (V c main_v14) (V c main_arg6) (V c main_v39)
          (((cfg3.win 4).blk t).view.emb y)
  refine dense2_block_entry (iblk3 V c 0 t) (iblk3 V c 1 t) (iblk3 V c 2 t) (iblk3 V c 3 t)
    (V c main_v38) (V c main_v14) (V c main_arg6) (V c main_v39) t.val y (((cfg3.win 4).blk t).view.emb y) ?_ ?_
    (fun p k r hr => features_block3 V c t p k r hr) (fun p r hr => scale_block3 V c t p r hr)
    (weights_block3 V c t) (bias_block3 V c t)
  · show win3_4.index t (0 : Fin 2) * 10000 + 1 * (y 0).val = t.val * 10000 + (y 0).val
    rw [e0]; omega
  · show win3_4.index t (1 : Fin 2) * 64 + 1 * (y 1).val = (y 1).val
    rw [e1]; omega

/-- An entry of main_v40 is in point t's block iff, on each axis, its coordinate lies in the block's range. -/
theorem mem_rows3 (t : Fin cfg3.N) (i : S50000x64.Idx) :
    i ∈ ((cfg3.win 4).blk t).view.set
      ↔ ∀ a : Fin 2, win3_4.index t a * S10000x64.size a ≤ (i a).val
          ∧ (i a).val < win3_4.index t a * S10000x64.size a + S10000x64.size a := by
  show i ∈ ((View.whole main_v40).slice (win3_4.rect t)).set ↔ _
  rw [View.set_slice_whole, Rect.mem_set_unit]
  exact Iff.rfl

/-- Every entry (r, q) of main_v40 is written back by some point: the point r / 10000, whose block holds rows
    (r / 10000)·10000 … (r / 10000)·10000 + 9999 and all 64 columns. -/
theorem rows_covered3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : grid3.N = 5 := N_3
  have ht : (i 0).val / 10000 < grid3.N := by omega
  refine ⟨⟨(i 0).val / 10000, ht⟩, flush3_4 _, ?_⟩
  obtain ⟨-, -, -, -, -, -, -, -, e0, e1⟩ := block_index3 ⟨(i 0).val / 10000, ht⟩
  rw [mem_rows3]
  intro a
  match a with
  | ⟨0, _⟩ =>
    show win3_4.index ⟨(i 0).val / 10000, ht⟩ (0 : Fin 2) * 10000 ≤ (i 0).val
      ∧ (i 0).val < win3_4.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win3_4.index ⟨(i 0).val / 10000, ht⟩ (1 : Fin 2) * 64 ≤ (i 1).val
      ∧ (i 1).val < win3_4.index ⟨(i 0).val / 10000, ht⟩ (1 : Fin 2) * 64 + 64
    rw [e1]; omega

/-- THE ARRAY main_v40 AFTER THE REGION is the second layer's stage of the arrays the region found. -/
theorem final3 (c : Dev nD) :
    (dat3 (F := Ideal) V c).arrAt 4 cfg3.N
      = Cert.Spec.dense2 (F := Ideal) (V c main_v38) (V c main_v14) (V c main_arg6) (V c main_v39) :=
  (dat3 (F := Ideal) V c).arrAt_eq_of_cover 4
    (Cert.Spec.dense2 (F := Ideal) (V c main_v38) (V c main_v14) (V c main_arg6) (V c main_v39))
    (fun t _ => written_back3 V c t) rows_covered3

/-! ### The first layer: blocks of main_v25, main_v14, all of main_arg4 and main_v26, into main_v27 -/

/-- Which block each window holds at grid point t, as for the second layer. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, k) of the feature block at point t is entry (t·10000 + p, k) of main_v25. -/
theorem features_block1 (c : Dev nD) (t : Fin cfg1.N) (p : Fin 10000) (k : Fin 128) (r : Fin 50000)
    (hr : r.val = t.val * 10000 + p.val) :
    (iblk1 V c 0 t : Vec Ideal S10000x128 .f32) (ix2 p k) = (V c main_v25 : S50000x128.Idx → EReal) (ix2 r k) := by
  obtain ⟨e0, e1, -⟩ := block_index1 t
  unfold iblk1
  rw [View.read_apply]
  show V c main_v25 (((cfg1.win 0).blk t).view.emb (ix2 p k)) = V c main_v25 (ix2 r k)
  refine congrArg (V c main_v25) (funext fun a => Fin.ext ?_)
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- Entry p of the scale block at point t is entry t·10000 + p of the column main_v14. -/
theorem scale_block1 (c : Dev nD) (t : Fin cfg1.N) (p : Fin 10000) (r : Fin 50000)
    (hr : r.val = t.val * 10000 + p.val) :
    (iblk1 V c 1 t : Vec Ideal S10000x1 .f32) (ix2 p (0 : Fin 1)) = (V c main_v14 : S50000x1.Idx → EReal) (ix2 r (0 : Fin 1)) := by
  obtain ⟨-, -, e0, e1, -⟩ := block_index1 t
  unfold iblk1
  rw [View.read_apply]
  show V c main_v14 (((cfg1.win 1).blk t).view.emb (ix2 p (0 : Fin 1))) = V c main_v14 (ix2 r (0 : Fin 1))
  refine congrArg (V c main_v14) (funext fun a => Fin.ext ?_)
  match a with
  | ⟨0, _⟩ => show win1_1.index t (0 : Fin 2) * 10000 + 1 * p.val = r.val; rw [e0, hr]; omega
  | ⟨1, _⟩ => show win1_1.index t (1 : Fin 2) * 1 + 1 * 0 = 0; rw [e1]

/-- The weights' block is, at every point, the whole of main_arg4. -/
theorem weights_block1 (c : Dev nD) (t : Fin cfg1.N) :
    (iblk1 V c 2 t : Vec Ideal S128x64 .f32) = (V c main_arg4 : S128x64.Idx → EReal) := by
  obtain ⟨-, -, -, -, e0, e1, -⟩ := block_index1 t
  unfold iblk1
  funext y
  rw [View.read_apply]
  show V c main_arg4 (((cfg1.win 2).blk t).view.emb y) = V c main_arg4 y
  refine congrArg (V c main_arg4) (funext fun a => Fin.ext ?_)
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

/-- The bias' block is, at every point, the whole of main_v26. -/
theorem bias_block1 (c : Dev nD) (t : Fin cfg1.N) :
    (iblk1 V c 3 t : Vec Ideal S1x64 .f32) = (V c main_v26 : S1x64.Idx → EReal) := by
  obtain ⟨-, -, -, -, -, -, e0, e1, -⟩ := block_index1 t
  unfold iblk1
  funext y
  rw [View.read_apply]
  show V c main_v26 (((cfg1.win 3).blk t).view.emb y) = V c main_v26 y
  refine congrArg (V c main_v26) (funext fun a => Fin.ext ?_)
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- WHAT POINT t WRITES BACK is rows t·10000 … t·10000 + 9999 of the first layer's stage of the whole arrays. -/
theorem written_back1 (c : Dev nD) (t : Fin cfg1.N) :
    (dat1 (F := Ideal) V c).flushed 4 t
      = ((cfg1.win 4).blk t).view.read (Elt Ideal)
          (Cert.Spec.relu64 (F := Ideal)
            (Cert.Spec.dense1 (F := Ideal) (V c main_v25) (V c main_v14) (V c main_arg4) (V c main_v26))) := by
  show (cfg1.win 4).cut (grid1.coords t) ((dat1 V c).after 4 t) = _
  rw [after1_4]
  unfold out1_4
  rw [View.canon_unit_zero zero_offsets]
  simp only [View.ld_unit_zero (S := S10000x128) zero_offsets, View.ld_unit_zero (S := S10000x1) zero_offsets,
    View.ld_unit_zero (S := S128x64) zero_offsets, View.ld_unit_zero (S := S1x64) zero_offsets]
  obtain ⟨-, -, -, -, -, -, -, -, e0, e1⟩ := block_index1 t
  funext y
  show k1_pay1 (F := Ideal) (iblk1 V c 0 t) (iblk1 V c 1 t) (iblk1 V c 2 t) (iblk1 V c 3 t) y
      = Cert.Spec.relu64 (F := Ideal)
          (Cert.Spec.dense1 (F := Ideal) (V c main_v25) (V c main_v14) (V c main_arg4) (V c main_v26))
          (((cfg1.win 4).blk t).view.emb y)
  refine dense1_block_entry (iblk1 V c 0 t) (iblk1 V c 1 t) (iblk1 V c 2 t) (iblk1 V c 3 t)
    (V c main_v25) (V c main_v14) (V c main_arg4) (V c main_v26) t.val y (((cfg1.win 4).blk t).view.emb y) ?_ ?_
    (fun p k r hr => features_block1 V c t p k r hr) (fun p r hr => scale_block1 V c t p r hr)
    (weights_block1 V c t) (bias_block1 V c t)
  · show win1_4.index t (0 : Fin 2) * 10000 + 1 * (y 0).val = t.val * 10000 + (y 0).val
    rw [e0]; omega
  · show win1_4.index t (1 : Fin 2) * 64 + 1 * (y 1).val = (y 1).val
    rw [e1]; omega

/-- An entry of main_v27 is in point t's block iff, on each axis, its coordinate lies in the block's range. -/
theorem mem_rows1 (t : Fin cfg1.N) (i : S50000x64.Idx) :
    i ∈ ((cfg1.win 4).blk t).view.set
      ↔ ∀ a : Fin 2, win1_4.index t a * S10000x64.size a ≤ (i a).val
          ∧ (i a).val < win1_4.index t a * S10000x64.size a + S10000x64.size a := by
  show i ∈ ((View.whole main_v27).slice (win1_4.rect t)).set ↔ _
  rw [View.set_slice_whole, Rect.mem_set_unit]
  exact Iff.rfl

/-- Every entry (r, q) of main_v27 is written back by the point r / 10000. -/
theorem rows_covered1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 5 := N_1
  have ht : (i 0).val / 10000 < grid1.N := by omega
  refine ⟨⟨(i 0).val / 10000, ht⟩, flush1_4 _, ?_⟩
  obtain ⟨-, -, -, -, -, -, -, -, e0, e1⟩ := block_index1 ⟨(i 0).val / 10000, ht⟩
  rw [mem_rows1]
  intro a
  match a with
  | ⟨0, _⟩ =>
    show win1_4.index ⟨(i 0).val / 10000, ht⟩ (0 : Fin 2) * 10000 ≤ (i 0).val
      ∧ (i 0).val < win1_4.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_4.index ⟨(i 0).val / 10000, ht⟩ (1 : Fin 2) * 64 ≤ (i 1).val
      ∧ (i 1).val < win1_4.index ⟨(i 0).val / 10000, ht⟩ (1 : Fin 2) * 64 + 64
    rw [e1]; omega

/-- THE ARRAY main_v27 AFTER THE REGION is the first layer's stage of the arrays the region found. -/
theorem final1 (c : Dev nD) :
    (dat1 (F := Ideal) V c).arrAt 4 cfg1.N
      = Cert.Spec.relu64 (F := Ideal)
          (Cert.Spec.dense1 (F := Ideal) (V c main_v25) (V c main_v14) (V c main_arg4) (V c main_v26)) :=
  (dat1 (F := Ideal) V c).arrAt_eq_of_cover 4
    (Cert.Spec.relu64 (F := Ideal)
      (Cert.Spec.dense1 (F := Ideal) (V c main_v25) (V c main_v14) (V c main_arg4) (V c main_v26)))
    (fun t _ => written_back1 V c t) rows_covered1

end Regions

end Cert.KernelIdeal.Dense

end
-- ==== Proof.EdgeHead.lean ====
/-
  The edge head of the network: what the last kernel leaves in its result array.

  There are 800000 edges. Edge e carries three rows: hs(e, ·) and hd(e, ·), the 64 features of its source and of
  its destination node, and ef(e, ·), its own 3 features. With weight columns ws, wd [64, 1], wf [3, 1] and a
  bias be [1, 1] the score of edge e is

      σ( Σ_{k<64} hs(e,k)·ws(k,0) + Σ_{k<64} hd(e,k)·wd(k,0) + Σ_{k<3} ef(e,k)·wf(k,0) + be(0,0) ),

  σ the logistic function. The kernel computes this in 80 grid points. Point t stages rows
  10000·t … 10000·t + 9999 of hs, hd and ef (its three row blocks) and the whole of ws, wd, wf, be, forms the
  three products of a [10000, ·] block with a [·, 1] column, adds them and the bias repeated down the rows,
  applies σ, and writes the [10000, 1] column back as rows 10000·t … 10000·t + 9999 of the result. The
  specification forms the same three products over all 800000 rows at once.

  Nothing joins the two sides but reading both at one entry. Entry (r, 0) of a product of [M, K] with [K, 1]
  is Σ_k lhs(r, k)·rhs(k, 0): it depends on row r of the left operand only, whatever M is. So entry (p, 0) of the
  product of a row block is entry (10000·t + p, 0) of the product of the whole array, term by term in the same
  order: no sum is rearranged and no factor moved, hence no finiteness is needed, and σ is applied to the same
  extended real on both sides and is never opened. On the extended reals a change of float format is the
  identity, so the kernel's narrowing of the matmul operands to bf16 disappears by unfolding.

  The module goes: the kernel's arithmetic at an entry of a block; the specification at an entry of the array;
  each staged block as rows of its array; what point t writes back is block t of the specification; the 80
  blocks cover the 800000 rows; hence the result array is the specification.
-/
import proofs.«166072_j77335181132320_2_alg».proof.Proof.Gen.KernelIdeal.Frame
import proofs.«166072_j77335181132320_2_alg».proof.Proof.Spec
import proofs.«166072_j77335181132320_2_alg».proof.Proof.LibPlainDot
import proofs.«166072_j77335181132320_2_alg».proof.Proof.LibMatrixBroadcast
import Idealize.ShloMosaic.Lib.Pipeline.Value
import Idealize.ShloMosaic.Lib.ValueIdx

noncomputable section

open scoped BigOperators

namespace Cert.KernelIdeal.EdgeHead

open Cert.KernelIdeal Cert.KernelIdeal.Gen Idealize.ShloMosaic Idealize.ShloMosaic.TcCoe Idealize.ShloMosaic.ValueIdx
open Idealize.ShloMosaic.Pipeline (Dat)

-- The contents of every buffer when the region is entered.
variable (V : (c : Dev nD) → (b : Ref sig .tc) → Buf (Elt Ideal) ((c : Thread nD τ).loc b))

/-! ## The kernel's arithmetic at one entry of a block -/

/-- A [1, 1] array repeated down a column [a, 1] reads, at (p, q), the array at (0, q): its first axis has
    extent one, so the coordinate there is 0; on the second axis both have extent one, so q = 0 is kept. -/
theorem rowBroadcast_apply {α : Type} {a : ℕ} (v : (⟨2, ![1, 1]⟩ : Shape).Idx → α)
    (h : (⟨2, ![1, 1]⟩ : Shape).Broadcasts ⟨2, ![a, 1]⟩) (p : Fin a) (q : Fin 1) :
    broadcastTo ⟨2, ![a, 1]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if (1 : ℕ) = 1 then 0 else q.val
    rw [if_pos rfl]; omega

/-- What one grid point computes, at row p of its column: σ of the three row-times-column sums plus the bias.
    The casts of a shape to itself are identities; the narrowing of the six matmul operands to bf16 is the
    identity on the extended reals, so each product into the zero accumulator is the plain sum over k of
    lhs(p, k)·rhs(k, q) of the f32 blocks themselves; the two additions and σ act entry by entry; the bias
    block is repeated down the rows. -/
theorem pay_apply (x0 x1 : Vec Ideal S10000x64 .f32) (x2 : Vec Ideal S10000x3 .f32) (x3 x4 : Vec Ideal S64x1 .f32)
    (x5 : Vec Ideal S3x1 .f32) (x6 : Vec Ideal S1x1 .f32) (p : Fin 10000) (q : Fin 1) :
    k4_pay1 x0 x1 x2 x3 x4 x5 x6 (ix2 p q)
      = FloatOps.logistic (φ := .f32) ((((∑ k : Fin 64, x0 (ix2 p k) * x3 (ix2 k q)) + (∑ k : Fin 64, x1 (ix2 p k) * x4 (ix2 k q)))
          + (∑ k : Fin 3, x2 (ix2 p k) * x5 (ix2 k q))) + x6 (ix2 (0 : Fin 1) q) : EReal) := by
  unfold k4_pay1
  simp only [shapeCast_self]
  refine congrArg (FloatOps.logistic (F := Ideal) (φ := .f32)) ?_
  refine congrArg₂ (fun a b : EReal => a + b) (congrArg₂ (fun a b : EReal => a + b) (congrArg₂ (fun a b : EReal => a + b) ?_ ?_) ?_) ?_
  · exact Cert.LibPlainDot.matmul_zero_apply none _ _ p q
  · exact Cert.LibPlainDot.matmul_zero_apply none _ _ p q
  · exact Cert.LibPlainDot.matmul_zero_apply none _ _ p q
  · exact rowBroadcast_apply _ _ p q

/-! ## The specification at one entry of the array -/

/-- The logit of edge r in the specification: the same three sums, over row r of the whole arrays, plus the
    bias. Each host product of [800000, K] with [K, 1] is at (r, q) the sum over k of lhs(r, k)·rhs(k, q); the bias
    [1, 1] broadcast to [800000, 1], each axis to itself, reads (0, q). -/
theorem edgeLogits_apply (hs hd : FVec Ideal S800000x64 .f32) (ef : FVec Ideal S800000x3 .f32) (ws wd : FVec Ideal S64x1 .f32)
    (wf : FVec Ideal S3x1 .f32) (be : FVec Ideal S1x1 .f32) (r : Fin 800000) (q : Fin 1) :
    Cert.Spec.edgeLogits (F := Ideal) hs hd ef ws wd wf be (ix2 r q)
      = ((((∑ k : Fin 64, hs (ix2 r k) * ws (ix2 k q)) + (∑ k : Fin 64, hd (ix2 r k) * wd (ix2 k q)))
          + (∑ k : Fin 3, ef (ix2 r k) * wf (ix2 k q))) + be (ix2 (0 : Fin 1) q) : EReal) := by
  unfold Cert.Spec.edgeLogits
  refine congrArg₂ (fun a b : EReal => a + b) (congrArg₂ (fun a b : EReal => a + b) (congrArg₂ (fun a b : EReal => a + b) ?_ ?_) ?_) ?_
  · exact Cert.LibPlainDot.dotGeneral_apply none .single hs ws r q
  · exact Cert.LibPlainDot.dotGeneral_apply none .single hd wd r q
  · exact Cert.LibPlainDot.dotGeneral_apply none .single ef wf r q
  · exact Cert.LibMatrixBroadcast.broadcastInDim_1b_ab_apply be _ r q

/-! ## The staged blocks as rows of their arrays

An element of a window's block at point t sits in the array, on each axis, at (block index)·(block extent) plus its
coordinate inside the block. The block index of the three edge arrays and of the result is (t, 0): their block
at t is rows 10000·t … 10000·t + 9999, all columns. The block index of the weights and the bias is (0, 0) at every
point: their one block is the whole array. -/

theorem zeroOffsets : (![0, 0] : Fin 2 → Nat) = fun _ => 0 := funext fun a => by fin_cases a <;> rfl

/-- The eight index maps at each of the 80 points, by evaluating them. -/
theorem blockIndex : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = t.val ∧ win4_7.index t (1 : Fin 2) = 0) :=
  (by decide +kernel : ∀ t : Fin grid4.N, _)

theorem point_lt (t : Fin cfg4.N) : t.val < 80 := lt_of_lt_of_eq t.isLt N_4

/-- The edge that row p of point t's blocks belongs to: 10000·t + p, below 800000 since t < 80 and p < 10000. -/
abbrev edgeRow (t : Fin cfg4.N) (p : Fin 10000) : Fin 800000 :=
  ⟨10000 * t.val + p.val, by have := point_lt t; have := p.isLt; omega⟩

/-- Row p of the source-feature block at t is row 10000·t + p of the source features. -/
theorem hsBlock_apply (c : Dev nD) (t : Fin cfg4.N) (p : Fin 10000) (k : Fin 64) :
    (iblk4 V c 0 t : Vec Ideal S10000x64 .f32) (ix2 p k) = (V c main_v50 : Vec Ideal S800000x64 .f32) (ix2 (edgeRow t p) k) := by
  obtain ⟨⟨e0, e1⟩, -⟩ := blockIndex t
  show V c main_v50 (((cfg4.win 0).blk t).view.emb (ix2 p k)) = V c main_v50 (ix2 (edgeRow t p) k)
  refine congrArg (V c main_v50) (funext fun a => Fin.ext ?_)
  match a with
  | ⟨0, _⟩ => show win4_0.index t (0 : Fin 2) * 10000 + 1 * p.val = 10000 * t.val + p.val; rw [e0]; omega
  | ⟨1, _⟩ => show win4_0.index t (1 : Fin 2) * 64 + 1 * k.val = k.val; rw [e1]; omega

/-- Row p of the destination-feature block at t is row 10000·t + p of the destination features. -/
theorem hdBlock_apply (c : Dev nD) (t : Fin cfg4.N) (p : Fin 10000) (k : Fin 64) :
    (iblk4 V c 1 t : Vec Ideal S10000x64 .f32) (ix2 p k) = (V c main_v57 : Vec Ideal S800000x64 .f32) (ix2 (edgeRow t p) k) := by
  obtain ⟨-, ⟨e0, e1⟩, -⟩ := blockIndex t
  show V c main_v57 (((cfg4.win 1).blk t).view.emb (ix2 p k)) = V c main_v57 (ix2 (edgeRow t p) k)
  refine congrArg (V c main_v57) (funext fun a => Fin.ext ?_)
  match a with
  | ⟨0, _⟩ => show win4_1.index t (0 : Fin 2) * 10000 + 1 * p.val = 10000 * t.val + p.val; rw [e0]; omega
  | ⟨1, _⟩ => show win4_1.index t (1 : Fin 2) * 64 + 1 * k.val = k.val; rw [e1]; omega

/-- Row p of the edge-feature block at t is row 10000·t + p of the edge features. -/
theorem efBlock_apply (c : Dev nD) (t : Fin cfg4.N) (p : Fin 10000) (k : Fin 3) :
    (iblk4 V c 2 t : Vec Ideal S10000x3 .f32) (ix2 p k) = (V c main_arg1 : Vec Ideal S800000x3 .f32) (ix2 (edgeRow t p) k) := by
  obtain ⟨-, -, ⟨e0, e1⟩, -⟩ := blockIndex t
  show V c main_arg1 (((cfg4.win 2).blk t).view.emb (ix2 p k)) = V c main_arg1 (ix2 (edgeRow t p) k)
  refine congrArg (V c main_arg1) (funext fun a => Fin.ext ?_)
  match a with
  | ⟨0, _⟩ => show win4_2.index t (0 : Fin 2) * 10000 + 1 * p.val = 10000 * t.val + p.val; rw [e0]; omega
  | ⟨1, _⟩ => show win4_2.index t (1 : Fin 2) * 3 + 1 * k.val = k.val; rw [e1]; omega

/-- The source-weight block is the source-weight column, at every point. -/
theorem wsBlock_apply (c : Dev nD) (t : Fin cfg4.N) (k : Fin 64) (q : Fin 1) :
    (iblk4 V c 3 t : Vec Ideal S64x1 .f32) (ix2 k q) = (V c main_v41 : Vec Ideal S64x1 .f32) (ix2 k q) := by
  obtain ⟨-, -, -, ⟨e0, e1⟩, -⟩ := blockIndex t
  show V c main_v41 (((cfg4.win 3).blk t).view.emb (ix2 k q)) = V c main_v41 (ix2 k q)
  refine congrArg (V c main_v41) (funext fun a => Fin.ext ?_)
  match a with
  | ⟨0, _⟩ => show win4_3.index t (0 : Fin 2) * 64 + 1 * k.val = k.val; rw [e0]; omega
  | ⟨1, _⟩ => show win4_3.index t (1 : Fin 2) * 1 + 1 * q.val = q.val; rw [e1]; omega

/-- The destination-weight block is the destination-weight column, at every point. -/
theorem wdBlock_apply (c : Dev nD) (t : Fin cfg4.N) (k : Fin 64) (q : Fin 1) :
    (iblk4 V c 4 t : Vec Ideal S64x1 .f32) (ix2 k q) = (V c main_v42 : Vec Ideal S64x1 .f32) (ix2 k q) := by
  obtain ⟨-, -, -, -, ⟨e0, e1⟩, -⟩ := blockIndex t
  show V c main_v42 (((cfg4.win 4).blk t).view.emb (ix2 k q)) = V c main_v42 (ix2 k q)
  refine congrArg (V c main_v42) (funext fun a => Fin.ext ?_)
  match a with
  | ⟨0, _⟩ => show win4_4.index t (0 : Fin 2) * 64 + 1 * k.val = k.val; rw [e0]; omega
  | ⟨1, _⟩ => show win4_4.index t (1 : Fin 2) * 1 + 1 * q.val = q.val; rw [e1]; omega

/-- The edge-feature-weight block is the edge-feature-weight column, at every point. -/
theorem wfBlock_apply (c : Dev nD) (t : Fin cfg4.N) (k : Fin 3) (q : Fin 1) :
    (iblk4 V c 5 t : Vec Ideal S3x1 .f32) (ix2 k q) = (V c main_v43 : Vec Ideal S3x1 .f32) (ix2 k q) := by
  obtain ⟨-, -, -, -, -, ⟨e0, e1⟩, -⟩ := blockIndex t
  show V c main_v43 (((cfg4.win 5).blk t).view.emb (ix2 k q)) = V c main_v43 (ix2 k q)
  refine congrArg (V c main_v43) (funext fun a => Fin.ext ?_)
  match a with
  | ⟨0, _⟩ => show win4_5.index t (0 : Fin 2) * 3 + 1 * k.val = k.val; rw [e0]; omega
  | ⟨1, _⟩ => show win4_5.index t (1 : Fin 2) * 1 + 1 * q.val = q.val; rw [e1]; omega

/-- The bias block is the bias, at every point. -/
theorem beBlock_apply (c : Dev nD) (t : Fin cfg4.N) (u q : Fin 1) :
    (iblk4 V c 6 t : Vec Ideal S1x1 .f32) (ix2 u q) = (V c main_v58 : Vec Ideal S1x1 .f32) (ix2 u q) := by
  obtain ⟨-, -, -, -, -, -, ⟨e0, e1⟩, -⟩ := blockIndex t
  show V c main_v58 (((cfg4.win 6).blk t).view.emb (ix2 u q)) = V c main_v58 (ix2 u q)
  refine congrArg (V c main_v58) (funext fun a => Fin.ext ?_)
  match a with
  | ⟨0, _⟩ => show win4_6.index t (0 : Fin 2) * 1 + 1 * u.val = u.val; rw [e0]; omega
  | ⟨1, _⟩ => show win4_6.index t (1 : Fin 2) * 1 + 1 * q.val = q.val; rw [e1]; omega

/-! ## What a point writes back, and the whole array -/

/-- The scores of all edges: σ, entry by entry, of the specification's logits of the seven arrays as the region
    finds them. -/
abbrev edgeScores (c : Dev nD) : FVec Ideal S800000x1 .f32 :=
  logistic (F := Ideal) (Cert.Spec.edgeLogits (F := Ideal) (V c main_v50) (V c main_v57) (V c main_arg1) (V c main_v41) (V c main_v42)
    (V c main_v43) (V c main_v58))

/-- Row p of what point t computes is the score of edge 10000·t + p. Both are σ of a sum of three sums and the
    bias; the sums agree term by term, since row p of each row block is row 10000·t + p of its array and the small
    blocks are their arrays. -/
theorem point_entry (c : Dev nD) (t : Fin cfg4.N) (p : Fin 10000) (q : Fin 1) :
    k4_pay1 (iblk4 V c 0 t) (iblk4 V c 1 t) (iblk4 V c 2 t) (iblk4 V c 3 t) (iblk4 V c 4 t) (iblk4 V c 5 t) (iblk4 V c 6 t) (ix2 p q)
      = edgeScores V c (ix2 (edgeRow t p) q) := by
  refine (pay_apply (iblk4 V c 0 t) (iblk4 V c 1 t) (iblk4 V c 2 t) (iblk4 V c 3 t) (iblk4 V c 4 t) (iblk4 V c 5 t) (iblk4 V c 6 t) p q).trans ?_
  show _ = FloatOps.logistic (F := Ideal) (φ := .f32) (Cert.Spec.edgeLogits (F := Ideal) (V c main_v50) (V c main_v57) (V c main_arg1)
    (V c main_v41) (V c main_v42) (V c main_v43) (V c main_v58) (ix2 (edgeRow t p) q))
  refine congrArg (FloatOps.logistic (F := Ideal) (φ := .f32)) ?_
  refine Eq.trans ?_ (edgeLogits_apply (V c main_v50) (V c main_v57) (V c main_arg1) (V c main_v41) (V c main_v42) (V c main_v43)
    (V c main_v58) (edgeRow t p) q).symm
  refine congrArg₂ (fun a b : EReal => a + b) (congrArg₂ (fun a b : EReal => a + b) (congrArg₂ (fun a b : EReal => a + b) ?_ ?_) ?_) ?_
  · exact Finset.sum_congr rfl fun k _ => congrArg₂ (fun a b : EReal => a * b) (hsBlock_apply V c t p k) (wsBlock_apply V c t k q)
  · exact Finset.sum_congr rfl fun k _ => congrArg₂ (fun a b : EReal => a * b) (hdBlock_apply V c t p k) (wdBlock_apply V c t k q)
  · exact Finset.sum_congr rfl fun k _ => congrArg₂ (fun a b : EReal => a * b) (efBlock_apply V c t p k) (wfBlock_apply V c t k q)
  · exact beBlock_apply V c t 0 q

/-- What point t writes back is block t of the scores. The body's one store fills the whole staging buffer with
    what it computed from the whole staged blocks; entry (p, q) of that is the score of edge 10000·t + p, and
    (10000·t + p, q) is where entry (p, q) of the result's block t sits in the result. -/
theorem flushedBlock (c : Dev nD) (t : Fin cfg4.N) :
    (dat4 (F := Ideal) V c).flushed 7 t = ((cfg4.win 7).blk t).view.read (Elt Ideal) (edgeScores V c) := by
  show (cfg4.win 7).cut (grid4.coords t) ((dat4 V c).after 7 t) = _
  rw [after4_7]
  unfold out4_7
  rw [View.canon_unit_zero zeroOffsets]
  simp only [View.ld_unit_zero (S := S10000x64) zeroOffsets, View.ld_unit_zero (S := S10000x3) zeroOffsets,
    View.ld_unit_zero (S := S64x1) zeroOffsets, View.ld_unit_zero (S := S3x1) zeroOffsets, View.ld_unit_zero (S := S1x1) zeroOffsets]
  refine funext fun (j : S10000x1.Idx) => ?_
  obtain ⟨p, q, rfl⟩ : ∃ (p : Fin 10000) (q : Fin 1), j = ix2 p q := ⟨j 0, j 1, eq_ix2 j⟩
  show k4_pay1 (iblk4 V c 0 t) (iblk4 V c 1 t) (iblk4 V c 2 t) (iblk4 V c 3 t) (iblk4 V c 4 t) (iblk4 V c 5 t) (iblk4 V c 6 t) (ix2 p q)
    = edgeScores V c (((cfg4.win 7).blk t).view.emb (ix2 p q))
  refine (point_entry V c t p q).trans ?_
  obtain ⟨-, -, -, -, -, -, -, e0, e1⟩ := blockIndex t
  refine congrArg (edgeScores V c) (funext fun a => Fin.ext ?_)
  match a with
  | ⟨0, _⟩ => show 10000 * t.val + p.val = win4_7.index t (0 : Fin 2) * 10000 + 1 * p.val; rw [e0]; omega
  | ⟨1, _⟩ => show q.val = win4_7.index t (1 : Fin 2) * 1 + 1 * q.val; rw [e1]; omega

/-- An index of the result is in point t's block iff on each axis it lies in the block's range. -/
theorem mem_block (t : Fin cfg4.N) (i : S800000x1.Idx) :
    i ∈ ((cfg4.win 7).blk t).view.set ↔ ∀ a : Fin 2, win4_7.index t a * S10000x1.size a ≤ (i a).val
      ∧ (i a).val < win4_7.index t a * S10000x1.size a + S10000x1.size a := by
  show i ∈ ((View.whole main_v59).slice (win4_7.rect t)).set ↔ _
  rw [View.set_slice_whole, Rect.mem_set_unit]
  exact Iff.rfl

/-- Every row of the result is written: row r lies in the block of point r / 10000, which is a grid point since
    r < 800000, and 10000·(r / 10000) ≤ r < 10000·(r / 10000) + 10000; the one column is column 0 of every block. -/
theorem covered (i : S800000x1.Idx) :
    ∃ t : Fin cfg4.N, (cfg4.win 7).flush t = true ∧ i ∈ ((cfg4.win 7).blk t).view.set := by
  have hi0 : (i 0).val < 800000 := (i 0).isLt
  have hi1 : (i 1).val < 1 := (i 1).isLt
  have ht : (i 0).val / 10000 < cfg4.N := by rw [show cfg4.N = 80 from N_4]; omega
  refine ⟨⟨(i 0).val / 10000, ht⟩, flush4_7 _, ?_⟩
  rw [mem_block]
  obtain ⟨-, -, -, -, -, -, -, e0, e1⟩ := blockIndex ⟨(i 0).val / 10000, ht⟩
  intro a
  match a with
  | ⟨0, _⟩ =>
    show win4_7.index ⟨(i 0).val / 10000, ht⟩ (0 : Fin 2) * 10000 ≤ (i 0).val
      ∧ (i 0).val < win4_7.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win4_7.index ⟨(i 0).val / 10000, ht⟩ (1 : Fin 2) * 1 ≤ (i 1).val
      ∧ (i 1).val < win4_7.index ⟨(i 0).val / 10000, ht⟩ (1 : Fin 2) * 1 + 1
    rw [e1]; omega

/-- After the region the result array holds the score of every edge: each point writes its block of the scores,
    and the blocks cover the array. -/
theorem final4 (c : Dev nD) : (dat4 (F := Ideal) V c).arrAt 7 cfg4.N
    = logistic (F := Ideal) (Cert.Spec.edgeLogits (F := Ideal) (V c main_v50) (V c main_v57) (V c main_arg1) (V c main_v41)
        (V c main_v42) (V c main_v43) (V c main_v58)) :=
  (dat4 (F := Ideal) V c).arrAt_eq_of_cover 7 (edgeScores V c) (fun t _ => flushedBlock V c t) covered

end Cert.KernelIdeal.EdgeHead

end
-- ==== Proof.lean ====
/-
  A graph convolutional network with an edge-scoring head: the Pallas kernel program against its jnp reference.

  Both programs compute, for a graph of 50000 nodes and 800000 edges,
      cs = max(1, out-degree)^(-1/2),  cd = max(1, in-degree)^(-1/2),
      conv h W b = ((Σ over the edges entering a node of (h · cs) at the edge's source) · cd) W + b,
      h1 = max(conv x W1 b1, 0),   h2 = conv h1 W2 b2,
      score e = 1 / (1 + exp (-(h2(src e)·We[0:64] + h2(dst e)·We[64:128] + efeat e·We[128:131] + be))).
  The reference does all of it in host operations.  The kernel program keeps the degree counts, the row gathers and the
  segment sums on the host and runs five pallas_calls over blocks of 10000 rows: two that scale rows by cs, two that
  do "scale by cd, multiply by W, add b" (the first also clamps at zero), and one that scores 10000 edges at a time.

  At the Ideal instance the two programs are the same composition of the same operations on extended reals:
  a change of float format is the identity; a block product into a zero accumulator is the row-by-row sum the
  host's dot_general takes; the blocks of 10000 rows tile each array; a reshape of a vector to a column or a row
  is the broadcast along the new unit axis; and the sigmoid is 1 / (1 + exp (-z)) by definition.  No law that needs
  finite values is used (sums and products are taken in the same order on both sides), so the precondition is not
  opened.

  The modules: Spec states the network stage by stage; RefRun reads the reference's generated run as that network;
  KRun is the kernel program's run with the result buffer named; ScaleRows, Dense and EdgeHead give what each region
  leaves in its output array; KW5, KW7, KW10, KW14 follow the buffers through the host stretches and the regions
  to the result.  The idealization pass rewrote nothing, so `preserves` has nothing to state.
-/
import proofs.«166072_j77335181132320_2_alg».proof.Defs
import proofs.«166072_j77335181132320_2_alg».proof.Proof.Gen.Kernel
import proofs.«166072_j77335181132320_2_alg».proof.Proof.Gen.Kernel.Frame
import proofs.«166072_j77335181132320_2_alg».proof.Proof.Gen.KernelIdeal
import proofs.«166072_j77335181132320_2_alg».proof.Proof.Gen.KernelIdeal.Frame
import proofs.«166072_j77335181132320_2_alg».proof.Proof.Gen.ReferenceIdeal
import proofs.«166072_j77335181132320_2_alg».proof.Proof.Gen.ReferenceIdeal.Run
import proofs.«166072_j77335181132320_2_alg».proof.Proof.Gen.Pre_finite_inputs
import proofs.«166072_j77335181132320_2_alg».proof.Proof.KRun
import proofs.«166072_j77335181132320_2_alg».proof.Proof.KW14
import proofs.«166072_j77335181132320_2_alg».proof.Proof.RefRun
import proofs.«166072_j77335181132320_2_alg».proof.Proof.ScaleRows
import proofs.«166072_j77335181132320_2_alg».proof.Proof.Dense
import proofs.«166072_j77335181132320_2_alg».proof.Proof.EdgeHead
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the ten arguments both programs end with the specification's network of those
    arguments in their result buffers: the kernel program by its run and the buffers followed through it, the
    reference by its generated run. -/
theorem algebraic : Cert.algebraic_KernelIdeal_ReferenceIdeal := by
  intro m ρ m' ρ' _ hagree
  refine ⟨fun c => Cert.Spec.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.w14_v60 m ρ c
          (fun V c => Cert.KernelIdeal.ScaleRows.final0 V c) (fun V c => Cert.KernelIdeal.Dense.final1 V c)
          (fun V c => Cert.KernelIdeal.ScaleRows.final2 V c) (fun V c => Cert.KernelIdeal.Dense.final3 V c)
          (fun V c => Cert.KernelIdeal.EdgeHead.final4 V c)), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.RefValue.result_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
